-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x90 : Shape := ⟨2, ![1048576, 90]⟩
abbrev S63x128 : Shape := ⟨2, ![63, 128]⟩
abbrev S128x128 : Shape := ⟨2, ![128, 128]⟩
abbrev S191x128 : Shape := ⟨2, ![191, 128]⟩
abbrev S128x129 : Shape := ⟨2, ![128, 129]⟩
abbrev S155x128 : Shape := ⟨2, ![155, 128]⟩
abbrev S128x3 : Shape := ⟨2, ![128, 3]⟩
abbrev S_ : Shape := ⟨0, ![]⟩

class Facts : Prop where
  bcast_S_S1048576x90 : S_.BroadcastsInDim S1048576x90 (![] : Fin 0 → Fin S1048576x90.rank)
  reducesTo_S1048576x90_S_d0_1 : S1048576x90.ReducesTo [0, 1] S_
  h_S_ : 0 < S_.numel
  bcast_S_S63x128 : S_.BroadcastsInDim S63x128 (![] : Fin 0 → Fin S63x128.rank)
  reducesTo_S63x128_S_d0_1 : S63x128.ReducesTo [0, 1] S_
  bcast_S_S128x128 : S_.BroadcastsInDim S128x128 (![] : Fin 0 → Fin S128x128.rank)
  reducesTo_S128x128_S_d0_1 : S128x128.ReducesTo [0, 1] S_
  bcast_S_S191x128 : S_.BroadcastsInDim S191x128 (![] : Fin 0 → Fin S191x128.rank)
  reducesTo_S191x128_S_d0_1 : S191x128.ReducesTo [0, 1] S_
  bcast_S_S128x129 : S_.BroadcastsInDim S128x129 (![] : Fin 0 → Fin S128x129.rank)
  reducesTo_S128x129_S_d0_1 : S128x129.ReducesTo [0, 1] S_
  bcast_S_S155x128 : S_.BroadcastsInDim S155x128 (![] : Fin 0 → Fin S155x128.rank)
  reducesTo_S155x128_S_d0_1 : S155x128.ReducesTo [0, 1] S_
  bcast_S_S128x3 : S_.BroadcastsInDim S128x3 (![] : Fin 0 → Fin S128x3.rank)
  reducesTo_S128x3_S_d0_1 : S128x3.ReducesTo [0, 1] S_

variable [Facts]

def fn_part2 {F : FTy → Type} [FloatOps F] (main_arg7 : FVec F S128x129 .f32) (main_arg8 : FVec F S155x128 .f32) (main_arg9 : FVec F S128x3 .f32) (main_v33 : IVec S_ 1) : IVec S_ 1 :=
  let main_v34 : FVec F S128x129 .f32 := Host.absf main_arg7
  let main_cst_12 : FVec F S_ .f32 := constant S_ .f32 0x7F800000#32
  let main_v35 : FVec F S128x129 .f32 := broadcastInDim S128x129 ![] bcast_S_S128x129 main_cst_12
  let main_v36 : IVec S128x129 1 := cmpf .olt main_v34 main_v35
  let main_c_13 : IVec S_ 1 := constantI S_ 1 1#1
  let main_v37 : IVec S_ 1 := (fun x v => Host.reduce IntOp.andi x v reducesTo_S128x129_S_d0_1 h_S_) main_v36 main_c_13
  let main_v38 : IVec S_ 1 := andi main_v33 main_v37
  let main_v39 : FVec F S155x128 .f32 := Host.absf main_arg8
  let main_cst_14 : FVec F S_ .f32 := constant S_ .f32 0x7F800000#32
  let main_v40 : FVec F S155x128 .f32 := broadcastInDim S155x128 ![] bcast_S_S155x128 main_cst_14
  let main_v41 : IVec S155x128 1 := cmpf .olt main_v39 main_v40
  let main_c_15 : IVec S_ 1 := constantI S_ 1 1#1
  let main_v42 : IVec S_ 1 := (fun x v => Host.reduce IntOp.andi x v reducesTo_S155x128_S_d0_1 h_S_) main_v41 main_c_15
  let main_v43 : IVec S_ 1 := andi main_v38 main_v42
  let main_v44 : FVec F S128x3 .f32 := Host.absf main_arg9
  let main_cst_16 : FVec F S_ .f32 := constant S_ .f32 0x7F800000#32
  let main_v45 : FVec F S128x3 .f32 := broadcastInDim S128x3 ![] bcast_S_S128x3 main_cst_16
  let main_v46 : IVec S128x3 1 := cmpf .olt main_v44 main_v45
  let main_c_17 : IVec S_ 1 := constantI S_ 1 1#1
  let main_v47 : IVec S_ 1 := (fun x v => Host.reduce IntOp.andi x v reducesTo_S128x3_S_d0_1 h_S_) main_v46 main_c_17
  let main_v48 : IVec S_ 1 := andi main_v43 main_v47
  main_v48

def fn_part1 {F : FTy → Type} [FloatOps F] (main_arg4 : FVec F S191x128 .f32) (main_arg5 : FVec F S128x128 .f32) (main_arg6 : FVec F S128x128 .f32) (main_arg7 : FVec F S128x129 .f32) (main_arg8 : FVec F S155x128 .f32) (main_arg9 : FVec F S128x3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S191x128 .f32 := Host.absf main_arg4
  let main_cst_6 : FVec F S_ .f32 := constant S_ .f32 0x7F800000#32
  let main_v20 : FVec F S191x128 .f32 := broadcastInDim S191x128 ![] bcast_S_S191x128 main_cst_6
  let main_v21 : IVec S191x128 1 := cmpf .olt main_v19 main_v20
  let main_c_7 : IVec S_ 1 := constantI S_ 1 1#1
  let main_v22 : IVec S_ 1 := (fun x v => Host.reduce IntOp.andi x v reducesTo_S191x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S1048576x90 .f32) (main_arg1 : FVec F S63x128 .f32) (main_arg2 : FVec F S128x128 .f32) (main_arg3 : FVec F S128x128 .f32) (main_arg4 : FVec F S191x128 .f32) (main_arg5 : FVec F S128x128 .f32) (main_arg6 : FVec F S128x128 .f32) (main_arg7 : FVec F S128x129 .f32) (main_arg8 : FVec F S155x128 .f32) (main_arg9 : FVec F S128x3 .f32) : IVec S_ 1 :=
  let main_v0 : FVec F S1048576x90 .f32 := Host.absf main_arg0
  let main_cst : FVec F S_ .f32 := constant S_ .f32 0x7F800000#32
  let main_v1 : FVec F S1048576x90 .f32 := broadcastInDim S1048576x90 ![] bcast_S_S1048576x90 main_cst
  let main_v2 : IVec S1048576x90 1 := cmpf .olt main_v0 main_v1
  let main_c : IVec S_ 1 := constantI S_ 1 1#1
  let main_v3 : IVec S_ 1 := (fun x v => Host.reduce IntOp.andi x v reducesTo_S1048576x90_S_d0_1 h_S_) main_v2 main_c
  let main_v4 : FVec F S63x128 .f32 := Host.absf main_arg1
  let main_cst_0 : FVec F S_ .f32 := constant S_ .f32 0x7F800000#32
  let main_v5 : FVec F S63x128 .f32 := broadcastInDim S63x128 ![] bcast_S_S63x128 main_cst_0
  let main_v6 : IVec S63x128 1 := cmpf .olt main_v4 main_v5
  let main_c_1 : IVec S_ 1 := constantI S_ 1 1#1
  let main_v7 : IVec S_ 1 := (fun x v => Host.reduce IntOp.andi x v reducesTo_S63x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_v13 main_v16
-- ==== Kernel.lean ====
abbrev S1048576x90 : Shape := ⟨2, ![1048576, 90]⟩
abbrev S63x128 : Shape := ⟨2, ![63, 128]⟩
abbrev S128x128 : Shape := ⟨2, ![128, 128]⟩
abbrev S191x128 : Shape := ⟨2, ![191, 128]⟩
abbrev S128x129 : Shape := ⟨2, ![128, 129]⟩
abbrev S155x128 : Shape := ⟨2, ![155, 128]⟩
abbrev S128x3 : Shape := ⟨2, ![128, 3]⟩
abbrev S27x128 : Shape := ⟨2, ![27, 128]⟩
abbrev S128x1 : Shape := ⟨2, ![128, 1]⟩
abbrev S1048576x4 : Shape := ⟨2, ![1048576, 4]⟩
abbrev S4096x90 : Shape := ⟨2, ![4096, 90]⟩
abbrev S4096x4 : Shape := ⟨2, ![4096, 4]⟩
abbrev S4096x63 : Shape := ⟨2, ![4096, 63]⟩
abbrev S4096x27 : Shape := ⟨2, ![4096, 27]⟩
abbrev S4096x128 : Shape := ⟨2, ![4096, 128]⟩
abbrev S4096x1 : Shape := ⟨2, ![4096, 1]⟩
abbrev S4096x3 : Shape := ⟨2, ![4096, 3]⟩

abbrev nBuf : Space → Nat
  | .hbm => 29
  | .vmem => 16
  | .smem => 0
  | _ => 0

abbrev bufTy : (tb : Table) → Fin (tcTables nBuf tb) → BufTy
  | .hbm, ⟨0, _⟩ => ⟨S1048576x90, .f32⟩
  | .hbm, ⟨1, _⟩ => ⟨S63x128, .f32⟩
  | .hbm, ⟨2, _⟩ => ⟨S128x128, .f32⟩
  | .hbm, ⟨3, _⟩ => ⟨S128x128, .f32⟩
  | .hbm, ⟨4, _⟩ => ⟨S191x128, .f32⟩
  | .hbm, ⟨5, _⟩ => ⟨S128x128, .f32⟩
  | .hbm, ⟨6, _⟩ => ⟨S128x128, .f32⟩
  | .hbm, ⟨7, _⟩ => ⟨S128x129, .f32⟩
  | .hbm, ⟨8, _⟩ => ⟨S155x128, .f32⟩
  | .hbm, ⟨9, _⟩ => ⟨S128x3, .f32⟩
  | .hbm, ⟨10, _⟩ => ⟨S63x128, .f32⟩
  | .hbm, ⟨11, _⟩ => ⟨S128x128, .f32⟩
  | .hbm, ⟨12, _⟩ => ⟨S27x128, .f32⟩
  | .hbm, ⟨13, _⟩ => ⟨S128x128, .f32⟩
  | .hbm, ⟨14, _⟩ => ⟨S128x1, .f32⟩
  | .hbm, ⟨15, _⟩ => ⟨S128x128, .f32⟩
  | .hbm, ⟨16, _⟩ => ⟨S63x128, .bf16⟩
  | .hbm, ⟨17, _⟩ => ⟨S128x128, .bf16⟩
  | .hbm, ⟨18, _⟩ => ⟨S128x128, .bf16⟩
  | .hbm, ⟨19, _⟩ => ⟨S63x128, .bf16⟩
  | .hbm, ⟨20, _⟩ => ⟨S128x128, .bf16⟩
  | .hbm, ⟨21, _⟩ => ⟨S128x128, .bf16⟩
  | .hbm, ⟨22, _⟩ => ⟨S128x128, .bf16⟩
  | .hbm, ⟨23, _⟩ => ⟨S128x1, .bf16⟩
  | .hbm, ⟨24, _⟩ => ⟨S128x128, .bf16⟩
  | .hbm, ⟨25, _⟩ => ⟨S27x128, .bf16⟩
  | .hbm, ⟨26, _⟩ => ⟨S128x128, .bf16⟩
  | .hbm, ⟨27, _⟩ => ⟨S128x3, .bf16⟩
  | .hbm, ⟨28, _⟩ => ⟨S1048576x4, .f32⟩
  | .local _ .vmem, ⟨0, _⟩ => ⟨S4096x90, .f32⟩
  | .local _ .vmem, ⟨1, _⟩ => ⟨S4096x90, .f32⟩
  | .local _ .vmem, ⟨2, _⟩ => ⟨S63x128, .bf16⟩
  | .local _ .vmem, ⟨3, _⟩ => ⟨S128x128, .bf16⟩
  | .local _ .vmem, ⟨4, _⟩ => ⟨S128x128, .bf16⟩
  | .local _ .vmem, ⟨5, _⟩ => ⟨S63x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x1, .bf16⟩
  | .local _ .vmem, ⟨10, _⟩ => ⟨S128x128, .bf16⟩
  | .local _ .vmem, ⟨11, _⟩ => ⟨S27x128, .bf16⟩
  | .local _ .vmem, ⟨12, _⟩ => ⟨S128x128, .bf16⟩
  | .local _ .vmem, ⟨13, _⟩ => ⟨S128x3, .bf16⟩
  | .local _ .vmem, ⟨14, _⟩ => ⟨S4096x4, .f32⟩
  | .local _ .vmem, ⟨15, _⟩ => ⟨S4096x4, .f32⟩
  | _, _ => ⟨S1048576x90, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x90 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S63x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S63x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S27x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x3 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4096x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S191x128_S63x128_0_0 : S191x128.Slices ![0, 0] S63x128
  slices_S191x128_S128x128_63_0 : S191x128.Slices ![63, 0] S128x128
  slices_S155x128_S27x128_0_0 : S155x128.Slices ![0, 0] S27x128
  slices_S155x128_S128x128_27_0 : S155x128.Slices ![27, 0] S128x128
  slices_S128x129_S128x1_0_0 : S128x129.Slices ![0, 0] S128x1
  slices_S128x129_S128x128_0_1 : S128x129.Slices ![0, 1] S128x128
  bitsLt_bf16_f32 : FTy.bits .bf16 < FTy.bits .f32
  inb_S4096x90_S4096x90_0_0 : ∀ a, (![0, 0] : Fin 2 → Nat) a + S4096x90.size a ≤ S4096x90.size a
  h_S4096x90 : 0 < S4096x90.numel
  slices_S4096x90_o0_0_S4096x63 : S4096x90.Slices ![0, 0] S4096x63
  slices_S4096x90_o0_63_S4096x27 : S4096x90.Slices ![0, 63] S4096x27
  inb_S63x128_S63x128_0_0 : ∀ a, (![0, 0] : Fin 2 → Nat) a + S63x128.size a ≤ S63x128.size a
  h_S63x128 : 0 < S63x128.numel
  shapeCasts_S63x128_S63x128 : S63x128.ShapeCasts S63x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S27x128_S27x128_0_0 : ∀ a, (![0, 0] : Fin 2 → Nat) a + S27x128.size a ≤ S27x128.size a
  h_S27x128 : 0 < S27x128.numel
  shapeCasts_S27x128_S27x128 : S27x128.ShapeCasts S27x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  concatenates_S4096x3_S4096x1_S4096x4_d1 : Shape.Concatenates [S4096x3, S4096x1] S4096x4 1
  inb_S4096x4_S4096x4_0_0 : ∀ a, (![0, 0] : Fin 2 → Nat) a + S4096x4.size a ≤ S4096x4.size a
  h_S4096x4 : 0 < S4096x4.numel
  dot_S4096x63_S63x128_S4096x128_1_0_0_1_n_n_wf : DotDims.WF S4096x63 S63x128 S4096x128 [1] [0] [0] [1] [] []
  dot_S4096x128_S128x128_S4096x128_1_0_0_1_n_n_wf : DotDims.WF S4096x128 S128x128 S4096x128 [1] [0] [0] [1] [] []
  dot_S4096x128_S128x1_S4096x1_1_0_0_1_n_n_wf : DotDims.WF S4096x128 S128x1 S4096x1 [1] [0] [0] [1] [] []
  dot_S4096x27_S27x128_S4096x128_1_0_0_1_n_n_wf : DotDims.WF S4096x27 S27x128 S4096x128 [1] [0] [0] [1] [] []
  dot_S4096x128_S128x3_S4096x3_1_0_0_1_n_n_wf : DotDims.WF S4096x128 S128x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x90.size a ≤ S1048576x90.size a
  hwx0_0 : ∀ i : grid0.Coords, EltTy.bits .f32 = 32 ∨ (Rect.block (s := S1048576x90) S4096x90.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S63x128.size a ≤ S63x128.size a
  hwx0_1 : ∀ i : grid0.Coords, EltTy.bits .bf16 = 32 ∨ (Rect.block (s := S63x128) S63x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S63x128.size a ≤ S63x128.size a
  hwx0_4 : ∀ i : grid0.Coords, EltTy.bits .bf16 = 32 ∨ (Rect.block (s := S63x128) S63x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S128x1.size a
  hwx0_8 : ∀ i : grid0.Coords, EltTy.bits .bf16 = 32 ∨ (Rect.block (s := S128x1) S128x1.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S27x128.size a ≤ S27x128.size a
  hwx0_10 : ∀ i : grid0.Coords, EltTy.bits .bf16 = 32 ∨ (Rect.block (s := S27x128) S27x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x3.size a ≤ S128x3.size a
  hwx0_12 : ∀ i : grid0.Coords, EltTy.bits .bf16 = 32 ∨ (Rect.block (s := S128x3) S128x3.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4096x4.size a ≤ S1048576x4.size a
  hwx0_13 : ∀ i : grid0.Coords, EltTy.bits .f32 = 32 ∨ (Rect.block (s := S1048576x4) S4096x4.size (cc0_transform_13 i) (hinb0_13 i)).WholeWords (EltTy.packing .f32)

variable [Facts₀]

def dot_S4096x63_S63x128_S4096x128_1_0_0_1_n_n : DotDims S4096x63 S63x128 S4096x128 where
  lhsContracting := [1]
  rhsContracting := [0]
  lhsNonContracting := [0]
  rhsNonContracting := [1]
  lhsBatch := []
  rhsBatch := []
  wf := dot_S4096x63_S63x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf
def dot_S4096x27_S27x128_S4096x128_1_0_0_1_n_n : DotDims S4096x27 S27x128 S4096x128 where
  lhsContracting := [1]
  rhsContracting := [0]
  lhsNonContracting := [0]
  rhsNonContracting := [1]
  lhsBatch := []
  rhsBatch := []
  wf := dot_S4096x27_S27x128_S4096x128_1_0_0_1_n_n_wf
def dot_S4096x128_S128x3_S4096x3_1_0_0_1_n_n : DotDims S4096x128 S128x3 S4096x3 where
  lhsContracting := [1]
  rhsContracting := [0]
  lhsNonContracting := [0]
  rhsNonContracting := [1]
  lhsBatch := []
  rhsBatch := []
  wf := dot_S4096x128_S128x3_S4096x3_1_0_0_1_n_n_wf

abbrev win0_0 : Pipeline.Window sig grid0 :=
  Pipeline.Window.ofSpec (Memref.whole main_arg0) S4096x90.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S63x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S63x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S128x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S27x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S128x3.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S4096x4.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1048576x90 : Shape := ⟨2, ![1048576, 90]⟩
abbrev S63x128 : Shape := ⟨2, ![63, 128]⟩
abbrev S128x128 : Shape := ⟨2, ![128, 128]⟩
abbrev S191x128 : Shape := ⟨2, ![191, 128]⟩
abbrev S128x129 : Shape := ⟨2, ![128, 129]⟩
abbrev S155x128 : Shape := ⟨2, ![155, 128]⟩
abbrev S128x3 : Shape := ⟨2, ![128, 3]⟩
abbrev S1048576x63 : Shape := ⟨2, ![1048576, 63]⟩
abbrev S1048576x27 : Shape := ⟨2, ![1048576, 27]⟩
abbrev S1048576x128 : Shape := ⟨2, ![1048576, 128]⟩
abbrev S_ : Shape := ⟨0, ![]⟩
abbrev S1048576x191 : Shape := ⟨2, ![1048576, 191]⟩
abbrev S1048576x129 : Shape := ⟨2, ![1048576, 129]⟩
abbrev S1048576x1 : Shape := ⟨2, ![1048576, 1]⟩
abbrev S1048576x155 : Shape := ⟨2, ![1048576, 155]⟩
abbrev S1048576x3 : Shape := ⟨2, ![1048576, 3]⟩
abbrev S1048576x4 : Shape := ⟨2, ![1048576, 4]⟩

abbrev nBuf : Space → Nat
  | .hbm => 47
  | .vmem => 0
  | .smem => 0
  | _ => 0

abbrev bufTy : (tb : Table) → Fin (tcTables nBuf tb) → BufTy
  | .hbm, ⟨0, _⟩ => ⟨S1048576x90, .f32⟩
  | .hbm, ⟨1, _⟩ => ⟨S63x128, .f32⟩
  | .hbm, ⟨2, _⟩ => ⟨S128x128, .f32⟩
  | .hbm, ⟨3, _⟩ => ⟨S128x128, .f32⟩
  | .hbm, ⟨4, _⟩ => ⟨S191x128, .f32⟩
  | .hbm, ⟨5, _⟩ => ⟨S128x128, .f32⟩
  | .hbm, ⟨6, _⟩ => ⟨S128x128, .f32⟩
  | .hbm, ⟨7, _⟩ => ⟨S128x129, .f32⟩
  | .hbm, ⟨8, _⟩ => ⟨S155x128, .f32⟩
  | .hbm, ⟨9, _⟩ => ⟨S128x3, .f32⟩
  | .hbm, ⟨10, _⟩ => ⟨S1048576x63, .f32⟩
  | .hbm, ⟨11, _⟩ => ⟨S1048576x27, .f32⟩
  | .hbm, ⟨12, _⟩ => ⟨S1048576x128, .f32⟩
  | .hbm, ⟨13, _⟩ => ⟨S_, .f32⟩
  | .hbm, ⟨14, _⟩ => ⟨S1048576x128, .f32⟩
  | .hbm, ⟨15, _⟩ => ⟨S1048576x128, .f32⟩
  | .hbm, ⟨16, _⟩ => ⟨S1048576x128, .f32⟩
  | .hbm, ⟨17, _⟩ => ⟨S_, .f32⟩
  | .hbm, ⟨18, _⟩ => ⟨S1048576x128, .f32⟩
  | .hbm, ⟨19, _⟩ => ⟨S1048576x128, .f32⟩
  | .hbm, ⟨20, _⟩ => ⟨S1048576x128, .f32⟩
  | .hbm, ⟨21, _⟩ => ⟨S_, .f32⟩
  | .hbm, ⟨22, _⟩ => ⟨S1048576x128, .f32⟩
  | .hbm, ⟨23, _⟩ => ⟨S1048576x128, .f32⟩
  | .hbm, ⟨24, _⟩ => ⟨S1048576x191, .f32⟩
  | .hbm, ⟨25, _⟩ => ⟨S1048576x128, .f32⟩
  | .hbm, ⟨26, _⟩ => ⟨S_, .f32⟩
  | .hbm, ⟨27, _⟩ => ⟨S1048576x128, .f32⟩
  | .hbm, ⟨28, _⟩ => ⟨S1048576x128, .f32⟩
  | .hbm, ⟨29, _⟩ => ⟨S1048576x128, .f32⟩
  | .hbm, ⟨30, _⟩ => ⟨S_, .f32⟩
  | .hbm, ⟨31, _⟩ => ⟨S1048576x128, .f32⟩
  | .hbm, ⟨32, _⟩ => ⟨S1048576x128, .f32⟩
  | .hbm, ⟨33, _⟩ => ⟨S1048576x128, .f32⟩
  | .hbm, ⟨34, _⟩ => ⟨S_, .f32⟩
  | .hbm, ⟨35, _⟩ => ⟨S1048576x128, .f32⟩
  | .hbm, ⟨36, _⟩ => ⟨S1048576x128, .f32⟩
  | .hbm, ⟨37, _⟩ => ⟨S1048576x129, .f32⟩
  | .hbm, ⟨38, _⟩ => ⟨S1048576x1, .f32⟩
  | .hbm, ⟨39, _⟩ => ⟨S1048576x128, .f32⟩
  | .hbm, ⟨40, _⟩ => ⟨S1048576x155, .f32⟩
  | .hbm, ⟨41, _⟩ => ⟨S1048576x128, .f32⟩
  | .hbm, ⟨42, _⟩ => ⟨S_, .f32⟩
  | .hbm, ⟨43, _⟩ => ⟨S1048576x128, .f32⟩
  | .hbm, ⟨44, _⟩ => ⟨S1048576x128, .f32⟩
  | .hbm, ⟨45, _⟩ => ⟨S1048576x3, .f32⟩
  | .hbm, ⟨46, _⟩ => ⟨S1048576x4, .f32⟩
  | _, _ => ⟨S1048576x90, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_cst : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_call1_cst : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_call2_cst : Ref sig .tc := ⟨.hbm, 21, rfl⟩
abbrev main_call2_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call3_cst : Ref sig .tc := ⟨.hbm, 26, rfl⟩
abbrev main_call3_v0 : Ref sig .tc := ⟨.hbm, 27, rfl⟩
abbrev main_v10 : Ref sig .tc := ⟨.hbm, 28, rfl⟩
abbrev main_v11 : Ref sig .tc := ⟨.hbm, 29, rfl⟩
abbrev main_call4_cst : Ref sig .tc := ⟨.hbm, 30, rfl⟩
abbrev main_call4_v0 : Ref sig .tc := ⟨.hbm, 31, rfl⟩
abbrev main_v12 : Ref sig .tc := ⟨.hbm, 32, rfl⟩
abbrev main_v13 : Ref sig .tc := ⟨.hbm, 33, rfl⟩
abbrev main_call5_cst : Ref sig .tc := ⟨.hbm, 34, rfl⟩
abbrev main_call5_v0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call6_cst : Ref sig .tc := ⟨.hbm, 42, rfl⟩
abbrev main_call6_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩

abbrev nD : Nat := 1
abbrev τ : Topo := Topo.v7x

variable {F : FTy → Type} [FloatOps F]

class Facts₀ : Prop where
  slices_S1048576x90_S1048576x63_0_0 : S1048576x90.Slices ![0, 0] S1048576x63
  slices_S1048576x90_S1048576x27_0_63 : S1048576x90.Slices ![0, 63] S1048576x27
  bcast_S_S1048576x128 : S_.BroadcastsInDim S1048576x128 (![] : Fin 0 → Fin S1048576x128.rank)
  concatenates_S1048576x63_S1048576x128_S1048576x191_d1 : Shape.Concatenates [S1048576x63, S1048576x128] S1048576x191 1
  slices_S1048576x129_S1048576x1_0_0 : S1048576x129.Slices ![0, 0] S1048576x1
  slices_S1048576x129_S1048576x128_0_1 : S1048576x129.Slices ![0, 1] S1048576x128
  concatenates_S1048576x27_S1048576x128_S1048576x155_d1 : Shape.Concatenates [S1048576x27, S1048576x128] S1048576x155 1
  concatenates_S1048576x3_S1048576x1_S1048576x4_d1 : Shape.Concatenates [S1048576x3, S1048576x1] S1048576x4 1
  dot_S1048576x63_S63x128_S1048576x128_1_0_0_1_n_n_wf : DotDims.WF S1048576x63 S63x128 S1048576x128 [1] [0] [0] [1] [] []
  dot_S1048576x128_S128x128_S1048576x128_1_0_0_1_n_n_wf : DotDims.WF S1048576x128 S128x128 S1048576x128 [1] [0] [0] [1] [] []
  dot_S1048576x191_S191x128_S1048576x128_1_0_0_1_n_n_wf : DotDims.WF S1048576x191 S191x128 S1048576x128 [1] [0] [0] [1] [] []
  dot_S1048576x128_S128x129_S1048576x129_1_0_0_1_n_n_wf : DotDims.WF S1048576x128 S128x129 S1048576x129 [1] [0] [0] [1] [] []
  dot_S1048576x155_S155x128_S1048576x128_1_0_0_1_n_n_wf : DotDims.WF S1048576x155 S155x128 S1048576x128 [1] [0] [0] [1] [] []
  dot_S1048576x128_S128x3_S1048576x3_1_0_0_1_n_n_wf : DotDims.WF S1048576x128 S128x3 S1048576x3 [1] [0] [0] [1] [] []

variable [Facts₀]

def dot_S1048576x63_S63x128_S1048576x128_1_0_0_1_n_n : DotDims S1048576x63 S63x128 S1048576x128 where
  lhsContracting := [1]
  rhsContracting := [0]
  lhsNonContracting := [0]
  rhsNonContracting := [1]
  lhsBatch := []
  rhsBatch := []
  wf := dot_S1048576x63_S63x128_S1048576x128_1_0_0_1_n_n_wf
def dot_S1048576x128_S128x128_S1048576x128_1_0_0_1_n_n : DotDims S1048576x128 S128x128 S1048576x128 where
  lhsContracting := [1]
  rhsContracting := [0]
  lhsNonContracting := [0]
  rhsNonContracting := [1]
  lhsBatch := []
  rhsBatch := []
  wf := dot_S1048576x128_S128x128_S1048576x128_1_0_0_1_n_n_wf
def dot_S1048576x191_S191x128_S1048576x128_1_0_0_1_n_n : DotDims S1048576x191 S191x128 S1048576x128 where
  lhsContracting := [1]
  rhsContracting := [0]
  lhsNonContracting := [0]
  rhsNonContracting := [1]
  lhsBatch := []
  rhsBatch := []
  wf := dot_S1048576x191_S191x128_S1048576x128_1_0_0_1_n_n_wf
def dot_S1048576x128_S128x129_S1048576x129_1_0_0_1_n_n : DotDims S1048576x128 S128x129 S1048576x129 where
  lhsContracting := [1]
  rhsContracting := [0]
  lhsNonContracting := [0]
  rhsNonContracting := [1]
  lhsBatch := []
  rhsBatch := []
  wf := dot_S1048576x128_S128x129_S1048576x129_1_0_0_1_n_n_wf
def dot_S1048576x155_S155x128_S1048576x128_1_0_0_1_n_n : DotDims S1048576x155 S155x128 S1048576x128 where
  lhsContracting := [1]
  rhsContracting := [0]
  lhsNonContracting := [0]
  rhsNonContracting := [1]
  lhsBatch := []
  rhsBatch := []
  wf := dot_S1048576x155_S155x128_S1048576x128_1_0_0_1_n_n_wf
def dot_S1048576x128_S128x3_S1048576x3_1_0_0_1_n_n : DotDims S1048576x128 S128x3 S1048576x3 where
  lhsContracting := [1]
  rhsContracting := [0]
  lhsNonContracting := [0]
  rhsNonContracting := [1]
  lhsBatch := []
  rhsBatch := []
  wf := dot_S1048576x128_S128x3_S1048576x3_1_0_0_1_n_n_wf

class Facts : Prop extends Facts₀ where

variable [Facts]
-- ==== Proof.Spec.lean ====
/-
  The network that both programs compute, one input row at a time, on the extended reals.

  An input row x has 90 entries: the first 63 are the position encoding, the last 27 the view encoding.
  Every layer is a product with a weight matrix and has no bias; every layer but the two output layers is
  followed by max (·, 0).

    density, part 1:   h¹ = relu (pos · A₁)        h² = relu (h¹ · A₂)        h³ = relu (h² · A₃)
    density, part 2:   g¹ = relu (pos · B₀ᵗ + h³ · B₀ᵇ)     g² = relu (g¹ · B₁)     g³ = relu (g² · B₂)
                       σ  = g³ · d   (one number)            f  = g³ · Φ   (128 numbers)
    colour:            c  = relu (view · C₀ᵗ + f · C₀ᵇ)     rgb = c · C₁  (3 numbers)

  The result row is (rgb₀, rgb₁, rgb₂, σ).

  B₀ᵗ and B₀ᵇ are the top 63 and the bottom 128 rows of one 191 × 128 matrix B₀, and pos · B₀ᵗ + h³ · B₀ᵇ is the
  product of the row (pos, h³) of length 191 with B₀: a sum over 191 terms cut after the 63rd. In the same way C₀ᵗ
  and C₀ᵇ are the top 27 and the bottom 128 rows of a 155 × 128 matrix C₀. d is column 0 and Φ columns 1 … 128 of
  one 128 × 129 matrix, so (σ, f) is the row g³ times that matrix. These are the only differences between the two
  programs: one of them holds the three matrices whole, the other holds them cut, and the sums are the same sums.
  Addition on the extended reals is commutative and associative, so cutting a finite sum in two needs no finiteness
  of the terms.

  Matrices are written here as functions of a row and a column index, a vector as a function of its index; the
  number of input rows does not appear, so the same function describes a block of 4096 rows and the whole array.
-/
import Idealize.ShloMosaic.PureOps.Ideal
import Idealize.ShloMosaic.Lib.ValueIdx

noncomputable section

open scoped BigOperators

namespace Cert.Spec

open Idealize.ShloMosaic Idealize.ShloMosaic.ValueIdx

/-- The zero of f32 as both programs write it (the word 0x00000000). Both sides carry the same word, so it is
    compared, never evaluated. -/
abbrev zero : EReal := Ideal.ofBits .f32 0x00000000#32

/-- max (x, 0). -/
def relu (x : EReal) : EReal := max x zero

/-- Entry j of the row vector v times the matrix A: the sum over k of v k · A k j. -/
def lin {a b : Nat} (v : Fin a → EReal) (A : Fin a → Fin b → EReal) (j : Fin b) : EReal :=
  ∑ k : Fin a, v k * A k j

/-- The twelve weight matrices as the network uses them, the three cut ones in their two parts. -/
structure Weights where
  /-- density part 1, 63 → 128 -/
  A1 : Fin 63 → Fin 128 → EReal
  /-- density part 1, 128 → 128 -/
  A2 : Fin 128 → Fin 128 → EReal
  /-- density part 1, 128 → 128 -/
  A3 : Fin 128 → Fin 128 → EReal
  /-- density part 2, first layer: the rows that meet the position encoding -/
  B0t : Fin 63 → Fin 128 → EReal
  /-- density part 2, first layer: the rows that meet h³ -/
  B0b : Fin 128 → Fin 128 → EReal
  /-- density part 2, 128 → 128 -/
  B1 : Fin 128 → Fin 128 → EReal
  /-- density part 2, 128 → 128 -/
  B2 : Fin 128 → Fin 128 → EReal
  /-- density part 2, last layer: the column that gives the density -/
  D : Fin 128 → Fin 1 → EReal
  /-- density part 2, last layer: the 128 columns that give the feature vector -/
  Phi : Fin 128 → Fin 128 → EReal
  /-- colour, first layer: the rows that meet the view encoding -/
  C0t : Fin 27 → Fin 128 → EReal
  /-- colour, first layer: the rows that meet the feature vector -/
  C0b : Fin 128 → Fin 128 → EReal
  /-- colour, 128 → 3 -/
  C1 : Fin 128 → Fin 3 → EReal

/-- The position encoding: entries 0 … 62 of the input row. -/
def pos (x : Fin 90 → EReal) (k : Fin 63) : EReal := x ⟨k.val, by omega⟩

/-- The view encoding: entries 63 … 89 of the input row. -/
def view (x : Fin 90 → EReal) (k : Fin 27) : EReal := x ⟨63 + k.val, by omega⟩

variable (W : Weights) (x : Fin 90 → EReal)

/-- h¹ = relu (pos · A₁). -/
def h1 (j : Fin 128) : EReal := relu (lin (pos x) W.A1 j)
/-- h² = relu (h¹ · A₂). -/
def h2 (j : Fin 128) : EReal := relu (lin (h1 W x) W.A2 j)
/-- h³ = relu (h² · A₃). -/
def h3 (j : Fin 128) : EReal := relu (lin (h2 W x) W.A3 j)
/-- g¹ = relu (pos · B₀ᵗ + h³ · B₀ᵇ). -/
def g1 (j : Fin 128) : EReal := relu (lin (pos x) W.B0t j + lin (h3 W x) W.B0b j)
/-- g² = relu (g¹ · B₁). -/
def g2 (j : Fin 128) : EReal := relu (lin (g1 W x) W.B1 j)
/-- g³ = relu (g² · B₂). -/
def g3 (j : Fin 128) : EReal := relu (lin (g2 W x) W.B2 j)
/-- σ = g³ · d, as a vector of length one. -/
def dens (j : Fin 1) : EReal := lin (g3 W x) W.D j
/-- f = g³ · Φ. -/
def feat (j : Fin 128) : EReal := lin (g3 W x) W.Phi j
/-- c = relu (view · C₀ᵗ + f · C₀ᵇ). -/
def col (j : Fin 128) : EReal := relu (lin (view x) W.C0t j + lin (feat W x) W.C0b j)
/-- rgb = c · C₁. -/
def rgb (j : Fin 3) : EReal := lin (col W x) W.C1 j

/-- The result row (rgb₀, rgb₁, rgb₂, σ). -/
def out (c : Fin 4) : EReal :=
  if h : c.val < 3 then rgb W x ⟨c.val, h⟩ else dens W x ⟨c.val - 3, by omega⟩

/-! ## The whole arrays -/

/-- The ten argument arrays' weights, cut as the network uses them: B₀ after its 63rd row, C₀ after its 27th row,
    the 128 × 129 matrix after its first column. -/
def weightsOf
    (W1 : (⟨2, ![63, 128]⟩ : Shape).Idx → EReal) (W2 W3 : (⟨2, ![128, 128]⟩ : Shape).Idx → EReal)
    (W4 : (⟨2, ![191, 128]⟩ : Shape).Idx → EReal) (W5 W6 : (⟨2, ![128, 128]⟩ : Shape).Idx → EReal)
    (W7 : (⟨2, ![128, 129]⟩ : Shape).Idx → EReal) (W8 : (⟨2, ![155, 128]⟩ : Shape).Idx → EReal)
    (W9 : (⟨2, ![128, 3]⟩ : Shape).Idx → EReal) : Weights where
  A1 k j := W1 (ix2 k j)
  A2 k j := W2 (ix2 k j)
  A3 k j := W3 (ix2 k j)
  B0t k j := W4 (ix2 (⟨k.val, by omega⟩ : Fin 191) j)
  B0b k j := W4 (ix2 (⟨63 + k.val, by omega⟩ : Fin 191) j)
  B1 k j := W5 (ix2 k j)
  B2 k j := W6 (ix2 k j)
  D k j := W7 (ix2 k (⟨j.val, by omega⟩ : Fin 129))
  Phi k j := W7 (ix2 k (⟨1 + j.val, by omega⟩ : Fin 129))
  C0t k j := W8 (ix2 (⟨k.val, by omega⟩ : Fin 155) j)
  C0b k j := W8 (ix2 (⟨27 + k.val, by omega⟩ : Fin 155) j)
  C1 k j := W9 (ix2 k j)

/-- The weights from twelve matrices that are already cut: what the kernel's body is handed. -/
def weightsOfBlocks
    (a1 : (⟨2, ![63, 128]⟩ : Shape).Idx → EReal) (a2 a3 : (⟨2, ![128, 128]⟩ : Shape).Idx → EReal)
    (b0t : (⟨2, ![63, 128]⟩ : Shape).Idx → EReal) (b0b b1 b2 : (⟨2, ![128, 128]⟩ : Shape).Idx → EReal)
    (d : (⟨2, ![128, 1]⟩ : Shape).Idx → EReal) (phi : (⟨2, ![128, 128]⟩ : Shape).Idx → EReal)
    (c0t : (⟨2, ![27, 128]⟩ : Shape).Idx → EReal) (c0b : (⟨2, ![128, 128]⟩ : Shape).Idx → EReal)
    (c1 : (⟨2, ![128, 3]⟩ : Shape).Idx → EReal) : Weights where
  A1 k j := a1 (ix2 k j)
  A2 k j := a2 (ix2 k j)
  A3 k j := a3 (ix2 k j)
  B0t k j := b0t (ix2 k j)
  B0b k j := b0b (ix2 k j)
  B1 k j := b1 (ix2 k j)
  B2 k j := b2 (ix2 k j)
  D k j := d (ix2 k j)
  Phi k j := phi (ix2 k j)
  C0t k j := c0t (ix2 k j)
  C0b k j := c0b (ix2 k j)
  C1 k j := c1 (ix2 k j)

/-- Row r of a matrix with 90 columns, as a vector. -/
def rowOf {n : Nat} (X : (⟨2, ![n, 90]⟩ : Shape).Idx → EReal) (r : Fin n) (k : Fin 90) : EReal := X (ix2 r k)

/-- The result array of the network over the million input rows: entry (r, c) is entry c of the network's result on
    row r of X. -/
def G (X : (⟨2, ![1048576, 90]⟩ : Shape).Idx → EReal)
    (W1 : (⟨2, ![63, 128]⟩ : Shape).Idx → EReal) (W2 W3 : (⟨2, ![128, 128]⟩ : Shape).Idx → EReal)
    (W4 : (⟨2, ![191, 128]⟩ : Shape).Idx → EReal) (W5 W6 : (⟨2, ![128, 128]⟩ : Shape).Idx → EReal)
    (W7 : (⟨2, ![128, 129]⟩ : Shape).Idx → EReal) (W8 : (⟨2, ![155, 128]⟩ : Shape).Idx → EReal)
    (W9 : (⟨2, ![128, 3]⟩ : Shape).Idx → EReal) : (⟨2, ![1048576, 4]⟩ : Shape).Idx → EReal :=
  fun i => out (weightsOf W1 W2 W3 W4 W5 W6 W7 W8 W9)
    (rowOf X (⟨(i 0).val, (i 0).isLt⟩ : Fin 1048576)) (⟨(i 1).val, (i 1).isLt⟩ : Fin 4)

/-- G at the entry (r, c). -/
theorem G_ix2 (X : (⟨2, ![1048576, 90]⟩ : Shape).Idx → EReal)
    (W1 : (⟨2, ![63, 128]⟩ : Shape).Idx → EReal) (W2 W3 : (⟨2, ![128, 128]⟩ : Shape).Idx → EReal)
    (W4 : (⟨2, ![191, 128]⟩ : Shape).Idx → EReal) (W5 W6 : (⟨2, ![128, 128]⟩ : Shape).Idx → EReal)
    (W7 : (⟨2, ![128, 129]⟩ : Shape).Idx → EReal) (W8 : (⟨2, ![155, 128]⟩ : Shape).Idx → EReal)
    (W9 : (⟨2, ![128, 3]⟩ : Shape).Idx → EReal) (r : Fin 1048576) (c : Fin 4) :
    G X W1 W2 W3 W4 W5 W6 W7 W8 W9 (ix2 r c) = out (weightsOf W1 W2 W3 W4 W5 W6 W7 W8 W9) (rowOf X r) c := rfl

end Cert.Spec

end
-- ==== Proof.HostArrays.lean ====
/-
  What the kernel's twelve weight arrays hold when the region is entered.

  Before the region the host cuts the 191 × 128 matrix into its top 63 and bottom 128 rows, the 155 × 128 matrix
  into its top 27 and bottom 128 rows, the 128 × 129 matrix into its first column and its last 128 columns, and
  changes the format of all twelve matrices to bf16. On the extended reals a change of format is the identity, so
  every entry of each of the twelve arrays is an entry of one of the nine weight arguments: the same entry for the
  six matrices that are not cut, the entry 63 (or 27) rows further down for a bottom part, one column further right
  for the last 128 columns.
-/
import proofs.«102627_j46471546142971_2_alg».proof.Proof.Gen.KernelIdeal.Frame
import Idealize.ShloMosaic.Lib.StableHlo.Run
import Idealize.ShloMosaic.Lib.ValueLayout

noncomputable section

open Idealize.ShloMosaic Idealize.ShloMosaic.TcCoe Idealize.SL.Sem Idealize.ShloMosaic.ValueIdx

namespace Cert.KernelIdeal.Entry

open Cert.KernelIdeal Cert.KernelIdeal.Gen

variable (m : (ℓ : Loc nD τ sig) → Buf (Elt Ideal) ℓ)

/-! ## The six matrices that are not cut -/

/-- The first matrix of density part 1. -/
theorem V_v6 (c : Dev nD) (k : Fin 63) (j : Fin 128) :
    (V m c main_v6 : S63x128.Idx → EReal) (ix2 k j) = (m ((c : Thread nD τ).loc main_arg1) : S63x128.Idx → EReal) (ix2 k j) := by
  have e : @Eq (S63x128.Idx → EReal) (V m c main_v6)
      (truncf (F := Ideal) .bf16 (m ((c : Thread nD τ).loc main_arg1) : S63x128.Idx → EReal) Gen.bitsLt_bf16_f32) := by
    dsimp only [Gen.V, Gen.hostOps0]; after_results
  rw [e]; rfl

/-- The second matrix of density part 1. -/
theorem V_v7 (c : Dev nD) (k : Fin 128) (j : Fin 128) :
    (V m c main_v7 : S128x128.Idx → EReal) (ix2 k j) = (m ((c : Thread nD τ).loc main_arg2) : S128x128.Idx → EReal) (ix2 k j) := by
  have e : @Eq (S128x128.Idx → EReal) (V m c main_v7)
      (truncf (F := Ideal) .bf16 (m ((c : Thread nD τ).loc main_arg2) : S128x128.Idx → EReal) Gen.bitsLt_bf16_f32) := by
    dsimp only [Gen.V, Gen.hostOps0]; after_results
  rw [e]; rfl

/-- The third matrix of density part 1. -/
theorem V_v8 (c : Dev nD) (k : Fin 128) (j : Fin 128) :
    (V m c main_v8 : S128x128.Idx → EReal) (ix2 k j) = (m ((c : Thread nD τ).loc main_arg3) : S128x128.Idx → EReal) (ix2 k j) := by
  have e : @Eq (S128x128.Idx → EReal) (V m c main_v8)
      (truncf (F := Ideal) .bf16 (m ((c : Thread nD τ).loc main_arg3) : S128x128.Idx → EReal) Gen.bitsLt_bf16_f32) := by
    dsimp only [Gen.V, Gen.hostOps0]; after_results
  rw [e]; rfl

/-- The second matrix of density part 2. -/
theorem V_v11 (c : Dev nD) (k : Fin 128) (j : Fin 128) :
    (V m c main_v11 : S128x128.Idx → EReal) (ix2 k j) = (m ((c : Thread nD τ).loc main_arg5) : S128x128.Idx → EReal) (ix2 k j) := by
  have e : @Eq (S128x128.Idx → EReal) (V m c main_v11)
      (truncf (F := Ideal) .bf16 (m ((c : Thread nD τ).loc main_arg5) : S128x128.Idx → EReal) Gen.bitsLt_bf16_f32) := by
    dsimp only [Gen.V, Gen.hostOps0]; after_results
  rw [e]; rfl

/-- The third matrix of density part 2. -/
theorem V_v12 (c : Dev nD) (k : Fin 128) (j : Fin 128) :
    (V m c main_v12 : S128x128.Idx → EReal) (ix2 k j) = (m ((c : Thread nD τ).loc main_arg6) : S128x128.Idx → EReal) (ix2 k j) := by
  have e : @Eq (S128x128.Idx → EReal) (V m c main_v12)
      (truncf (F := Ideal) .bf16 (m ((c : Thread nD τ).loc main_arg6) : S128x128.Idx → EReal) Gen.bitsLt_bf16_f32) := by
    dsimp only [Gen.V, Gen.hostOps0]; after_results
  rw [e]; rfl

/-- The last matrix of the colour network. -/
theorem V_v17 (c : Dev nD) (k : Fin 128) (j : Fin 3) :
    (V m c main_v17 : S128x3.Idx → EReal) (ix2 k j) = (m ((c : Thread nD τ).loc main_arg9) : S128x3.Idx → EReal) (ix2 k j) := by
  have e : @Eq (S128x3.Idx → EReal) (V m c main_v17)
      (truncf (F := Ideal) .bf16 (m ((c : Thread nD τ).loc main_arg9) : S128x3.Idx → EReal) Gen.bitsLt_bf16_f32) := by
    dsimp only [Gen.V, Gen.hostOps0]; after_results
  rw [e]; rfl

/-! ## The three matrices that are cut in two -/

/-- The top 63 rows of the first matrix of density part 2: the same entry of the whole matrix. -/
theorem V_v9 (c : Dev nD) (k : Fin 63) (j : Fin 128) :
    (V m c main_v9 : S63x128.Idx → EReal) (ix2 k j) = (m ((c : Thread nD τ).loc main_arg4) : S191x128.Idx → EReal) (ix2 (⟨k.val, by omega⟩ : Fin 191) j) := by
  have e : @Eq (S63x128.Idx → EReal) (V m c main_v9)
      (truncf (F := Ideal) .bf16 (extractStridedSlice S63x128 ![0, 0] (m ((c : Thread nD τ).loc main_arg4) : S191x128.Idx → EReal) Gen.slices_S191x128_S63x128_0_0) Gen.bitsLt_bf16_f32) := by
    dsimp only [Gen.V, Gen.hostOps0]; after_results
  rw [e]
  exact slice2_axis0_apply 0 _ Gen.slices_S191x128_S63x128_0_0 k j _ (Nat.zero_add _).symm

/-- Its bottom 128 rows: the entry 63 rows further down. -/
theorem V_v10 (c : Dev nD) (k : Fin 128) (j : Fin 128) :
    (V m c main_v10 : S128x128.Idx → EReal) (ix2 k j) = (m ((c : Thread nD τ).loc main_arg4) : S191x128.Idx → EReal) (ix2 (⟨63 + k.val, by omega⟩ : Fin 191) j) := by
  have e : @Eq (S128x128.Idx → EReal) (V m c main_v10)
      (truncf (F := Ideal) .bf16 (extractStridedSlice S128x128 ![63, 0] (m ((c : Thread nD τ).loc main_arg4) : S191x128.Idx → EReal) Gen.slices_S191x128_S128x128_63_0) Gen.bitsLt_bf16_f32) := by
    dsimp only [Gen.V, Gen.hostOps0]; after_results
  rw [e]
  exact slice2_axis0_apply 63 _ Gen.slices_S191x128_S128x128_63_0 k j _ rfl

/-- The first column of the last matrix of density part 2. -/
theorem V_v13 (c : Dev nD) (k : Fin 128) (j : Fin 1) :
    (V m c main_v13 : S128x1.Idx → EReal) (ix2 k j) = (m ((c : Thread nD τ).loc main_arg7) : S128x129.Idx → EReal) (ix2 k (⟨j.val, by omega⟩ : Fin 129)) := by
  have e : @Eq (S128x1.Idx → EReal) (V m c main_v13)
      (truncf (F := Ideal) .bf16 (extractStridedSlice S128x1 ![0, 0] (m ((c : Thread nD τ).loc main_arg7) : S128x129.Idx → EReal) Gen.slices_S128x129_S128x1_0_0) Gen.bitsLt_bf16_f32) := by
    dsimp only [Gen.V, Gen.hostOps0]; after_results
  rw [e]
  exact slice2_axis1_apply 0 _ Gen.slices_S128x129_S128x1_0_0 k j _ (Nat.zero_add _).symm

/-- Its last 128 columns: the entry one column further right. -/
theorem V_v14 (c : Dev nD) (k : Fin 128) (j : Fin 128) :
    (V m c main_v14 : S128x128.Idx → EReal) (ix2 k j) = (m ((c : Thread nD τ).loc main_arg7) : S128x129.Idx → EReal) (ix2 k (⟨1 + j.val, by omega⟩ : Fin 129)) := by
  have e : @Eq (S128x128.Idx → EReal) (V m c main_v14)
      (truncf (F := Ideal) .bf16 (extractStridedSlice S128x128 ![0, 1] (m ((c : Thread nD τ).loc main_arg7) : S128x129.Idx → EReal) Gen.slices_S128x129_S128x128_0_1) Gen.bitsLt_bf16_f32) := by
    dsimp only [Gen.V, Gen.hostOps0]; after_results
  rw [e]
  exact slice2_axis1_apply 1 _ Gen.slices_S128x129_S128x128_0_1 k j _ rfl

/-- The top 27 rows of the first matrix of the colour network. -/
theorem V_v15 (c : Dev nD) (k : Fin 27) (j : Fin 128) :
    (V m c main_v15 : S27x128.Idx → EReal) (ix2 k j) = (m ((c : Thread nD τ).loc main_arg8) : S155x128.Idx → EReal) (ix2 (⟨k.val, by omega⟩ : Fin 155) j) := by
  have e : @Eq (S27x128.Idx → EReal) (V m c main_v15)
      (truncf (F := Ideal) .bf16 (extractStridedSlice S27x128 ![0, 0] (m ((c : Thread nD τ).loc main_arg8) : S155x128.Idx → EReal) Gen.slices_S155x128_S27x128_0_0) Gen.bitsLt_bf16_f32) := by
    dsimp only [Gen.V, Gen.hostOps0]; after_results
  rw [e]
  exact slice2_axis0_apply 0 _ Gen.slices_S155x128_S27x128_0_0 k j _ (Nat.zero_add _).symm

/-- Its bottom 128 rows: the entry 27 rows further down. -/
theorem V_v16 (c : Dev nD) (k : Fin 128) (j : Fin 128) :
    (V m c main_v16 : S128x128.Idx → EReal) (ix2 k j) = (m ((c : Thread nD τ).loc main_arg8) : S155x128.Idx → EReal) (ix2 (⟨27 + k.val, by omega⟩ : Fin 155) j) := by
  have e : @Eq (S128x128.Idx → EReal) (V m c main_v16)
      (truncf (F := Ideal) .bf16 (extractStridedSlice S128x128 ![27, 0] (m ((c : Thread nD τ).loc main_arg8) : S155x128.Idx → EReal) Gen.slices_S155x128_S128x128_27_0) Gen.bitsLt_bf16_f32) := by
    dsimp only [Gen.V, Gen.hostOps0]; after_results
  rw [e]
  exact slice2_axis0_apply 27 _ Gen.slices_S155x128_S128x128_27_0 k j _ rfl

end Cert.KernelIdeal.Entry

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.Payload.lean ====
/-
  The value the kernel's body stores, read at one entry.

  The body loads one block of 4096 input rows and the twelve weight blocks, computes, and stores one block of
  4096 result rows. This file proves that entry (p, c) of the stored block is entry c of the network of Spec.lean
  evaluated on row p of the loaded input block with the twelve loaded weight blocks:

      stored (p, c) = out W (row p of the input block) c,     W = the twelve blocks read as matrices.

  Why it is true. Every operation of the body treats the rows of a block independently. A slice of columns, a
  change of float format, max (·, 0) and a sum of two blocks act entry by entry, and entry (p, j) of a matrix
  product lhs · rhs is the sum over k of lhs (p, k) · rhs (k, j), which reads row p of lhs only. So row p of any
  value in the body is a function of row p of the values it is computed from, and that function is one layer of
  the network. Each lemma below therefore has the form

      if row p of the layer's input is the vector u, then row p of the layer's output is (the layer) u,

  stated for an arbitrary input block, so that no lemma looks further back than one layer. On the extended reals
  a change of float format is the identity, the zero word is the number 0, and a product into the zero accumulator
  is the plain sum (0 + s = s), so a layer of the body is literally a layer of the network: relu (u · A), or
  relu (u₁ · A₁ + u₂ · A₂) where the network's matrix is held cut in two, or u · A for the two output layers.

  The body is given by the generated module in two halves. The first half ends at the product g¹ · B₁ (before its
  relu) and also hands on the view columns of the input; the second half starts from those two values, applies
  the relu, and ends at the stored block (rgb₀, rgb₁, rgb₂, σ). The halves are proved separately and then joined.
-/
import proofs.«102627_j46471546142971_2_alg».proof.Proof.Gen.KernelIdeal.Skeleton
import proofs.«102627_j46471546142971_2_alg».proof.Proof.Spec
import proofs.«102627_j46471546142971_2_alg».proof.Proof.LibPlainDot
import Idealize.ShloMosaic.Lib.ValueLayout
import Idealize.ShloMosaic.Lib.ValueIdx
import Idealize.ShloMosaic.Lib.Pipeline.Value
import Idealize.ShloMosaic.PureOps.Ideal.Laws

noncomputable section

open Cert.KernelIdeal Cert.KernelIdeal.Gen Idealize.ShloMosaic Idealize.ShloMosaic.ValueIdx
open scoped BigOperators

namespace Cert.KernelIdeal.Body

/-! ## One layer, for any extents

Blocks are [M, K] (activations, M rows) and [K, N] (weights). `p` is a row, `j` a column of the result. -/

/-- max (·, 0) entry by entry: the body takes the maximum with a block filled with the zero word, and the network's
    relu is the maximum with that same word's value. Both sides are the same `max`, by definition. -/
theorem relu_apply {M N : Nat} (h : FVec Ideal ⟨2, ![M, N]⟩ .f32) (p : Fin M) (j : Fin N) :
    maximumf h (broadcast ⟨2, ![M, N]⟩ (Scalar.ofBits (F := Ideal) .f32 0x00000000#32)) (ix2 p j)
      = Spec.relu (h (ix2 p j)) := rfl

/-- A product without relu (an output layer, or one half of a cut layer). The body narrows the activations to
    bf16 (the identity here), views the weight block at its own shape (the identity), and multiplies into the zero
    accumulator. If row p of the activations is u, entry (p, j) of the product is ∑ₖ u k · w (k, j), which is
    `lin u w j`. `hD` says the product's dimension numbers are the plain ones, [M, K] · [K, N]. -/
theorem mm_apply {M K N : Nat} (D : DotDims ⟨2, ![M, K]⟩ ⟨2, ![K, N]⟩ ⟨2, ![M, N]⟩) (hD : D = DotDims.plain M K N)
    (h : FVec Ideal ⟨2, ![M, K]⟩ .f32) (hb : FTy.bits .bf16 < FTy.bits .f32)
    (w : FVec Ideal ⟨2, ![K, N]⟩ .bf16) (hc : (⟨2, ![K, N]⟩ : Shape).ShapeCasts ⟨2, ![K, N]⟩)
    (u : Fin K → EReal) (p : Fin M) (hu : ∀ k, h (ix2 p k) = u k) (j : Fin N) :
    matmul D none (truncf .bf16 h hb) (shapeCast ⟨2, ![K, N]⟩ w hc)
        (constant (F := Ideal) ⟨2, ![M, N]⟩ .f32 0x00000000#32) (ix2 p j)
      = Spec.lin u (fun k j => w (ix2 k j)) j := by
  subst hD
  -- the view of the weight block at its own shape is the block
  rw [shapeCast_self]
  -- entry (p, j) of the product is the sum over k of lhs (p, k) · w (k, j); the narrowed lhs (p, k) is h (p, k)
  refine (Cert.LibPlainDot.matmul_zero_apply none _ _ p j).trans ?_
  -- and h (p, k) is u k, term by term
  exact Finset.sum_congr rfl fun k _ => congrArg (· * w (ix2 k j)) (hu k)

/-- A hidden layer: relu (u · w). -/
theorem layer_apply {M K N : Nat} (D : DotDims ⟨2, ![M, K]⟩ ⟨2, ![K, N]⟩ ⟨2, ![M, N]⟩) (hD : D = DotDims.plain M K N)
    (h : FVec Ideal ⟨2, ![M, K]⟩ .f32) (hb : FTy.bits .bf16 < FTy.bits .f32)
    (w : FVec Ideal ⟨2, ![K, N]⟩ .bf16) (hc : (⟨2, ![K, N]⟩ : Shape).ShapeCasts ⟨2, ![K, N]⟩)
    (u : Fin K → EReal) (p : Fin M) (hu : ∀ k, h (ix2 p k) = u k) (j : Fin N) :
    maximumf (matmul D none (truncf .bf16 h hb) (shapeCast ⟨2, ![K, N]⟩ w hc)
        (constant (F := Ideal) ⟨2, ![M, N]⟩ .f32 0x00000000#32))
        (broadcast ⟨2, ![M, N]⟩ (Scalar.ofBits (F := Ideal) .f32 0x00000000#32)) (ix2 p j)
      = Spec.relu (Spec.lin u (fun k j => w (ix2 k j)) j) :=
  (relu_apply _ p j).trans (congrArg Spec.relu (mm_apply D hD h hb w hc u p hu j))

/-- A hidden layer whose matrix is held cut in two: relu (u₁ · w₁ + u₂ · w₂). The body forms the two products
    separately and adds them entry by entry before the relu. -/
theorem layer2_apply {M K₁ K₂ N : Nat}
    (D₁ : DotDims ⟨2, ![M, K₁]⟩ ⟨2, ![K₁, N]⟩ ⟨2, ![M, N]⟩) (hD₁ : D₁ = DotDims.plain M K₁ N)
    (D₂ : DotDims ⟨2, ![M, K₂]⟩ ⟨2, ![K₂, N]⟩ ⟨2, ![M, N]⟩) (hD₂ : D₂ = DotDims.plain M K₂ N)
    (h₁ : FVec Ideal ⟨2, ![M, K₁]⟩ .f32) (h₂ : FVec Ideal ⟨2, ![M, K₂]⟩ .f32) (hb₁ hb₂ : FTy.bits .bf16 < FTy.bits .f32)
    (w₁ : FVec Ideal ⟨2, ![K₁, N]⟩ .bf16) (hc₁ : (⟨2, ![K₁, N]⟩ : Shape).ShapeCasts ⟨2, ![K₁, N]⟩)
    (w₂ : FVec Ideal ⟨2, ![K₂, N]⟩ .bf16) (hc₂ : (⟨2, ![K₂, N]⟩ : Shape).ShapeCasts ⟨2, ![K₂, N]⟩)
    (u₁ : Fin K₁ → EReal) (u₂ : Fin K₂ → EReal) (p : Fin M)
    (hu₁ : ∀ k, h₁ (ix2 p k) = u₁ k) (hu₂ : ∀ k, h₂ (ix2 p k) = u₂ k) (j : Fin N) :
    maximumf (addf
        (matmul D₁ none (truncf .bf16 h₁ hb₁) (shapeCast ⟨2, ![K₁, N]⟩ w₁ hc₁)
          (constant (F := Ideal) ⟨2, ![M, N]⟩ .f32 0x00000000#32))
        (matmul D₂ none (truncf .bf16 h₂ hb₂) (shapeCast ⟨2, ![K₂, N]⟩ w₂ hc₂)
          (constant (F := Ideal) ⟨2, ![M, N]⟩ .f32 0x00000000#32)))
        (broadcast ⟨2, ![M, N]⟩ (Scalar.ofBits (F := Ideal) .f32 0x00000000#32)) (ix2 p j)
      = Spec.relu (Spec.lin u₁ (fun k j => w₁ (ix2 k j)) j + Spec.lin u₂ (fun k j => w₂ (ix2 k j)) j) :=
  -- the sum of two blocks at an entry is the sum of the entries, by definition; each entry is a product's
  (relu_apply _ p j).trans (congrArg Spec.relu
    (congrArg₂ (· + ·) (mm_apply D₁ hD₁ h₁ hb₁ w₁ hc₁ u₁ p hu₁ j) (mm_apply D₂ hD₂ h₂ hb₂ w₂ hc₂ u₂ p hu₂ j)))

/-! ## The two ends: the input's columns cut, the result's columns joined -/

/-- Columns 0 … 62 of the input block: entry (p, k) of the slice is entry (p, k) of the block, which is entry k of
    the position encoding of row p. -/
theorem slice_pos (v0 : FVec Ideal S4096x90 .f32) (h : S4096x90.Slices ![0, 0] S4096x63) (p : Fin 4096) (k : Fin 63) :
    extractStridedSlice S4096x63 ![0, 0] v0 h (ix2 p k) = Spec.pos (Spec.rowOf v0 p) k :=
  slice2_axis1_apply 0 v0 h p k ⟨k.val, by omega⟩ (Nat.zero_add _).symm

/-- Columns 63 … 89 of the input block: entry (p, k) of the slice is entry (p, 63 + k) of the block, which is entry k
    of the view encoding of row p. -/
theorem slice_view (v0 : FVec Ideal S4096x90 .f32) (h : S4096x90.Slices ![0, 63] S4096x27) (p : Fin 4096) (k : Fin 27) :
    extractStridedSlice S4096x27 ![0, 63] v0 h (ix2 p k) = Spec.view (Spec.rowOf v0 p) k :=
  slice2_axis1_apply 63 v0 h p k ⟨63 + k.val, by omega⟩ rfl

/-- The stored block is the three colour columns followed by the one density column. If row p of the colour block
    is r and row p of the density block is d, entry (p, c) of the joined block is r c for c < 3 and d (c − 3)
    otherwise: the same case split by which the network's `out` is defined. -/
theorem concat_apply (R : FVec Ideal S4096x3 .f32) (Dn : FVec Ideal S4096x1 .f32)
    (h : Shape.Concatenates [S4096x3, S4096x1] S4096x4 1) (p : Fin 4096)
    (r : Fin 3 → EReal) (d : Fin 1 → EReal) (hr : ∀ j, R (ix2 p j) = r j) (hd : ∀ j, Dn (ix2 p j) = d j) (c : Fin 4) :
    concatenate S4096x4 1 [⟨S4096x3, R⟩, ⟨S4096x1, Dn⟩] h (ix2 p c)
      = if hc : c.val < 3 then r ⟨c.val, hc⟩ else d ⟨c.val - 3, by omega⟩ := by
  by_cases hc : c.val < 3
  · -- column c falls in the first piece, which is read at (p, c)
    rw [dif_pos hc]
    refine (concatenate_pair_apply_left 1 R Dn h (ix2 p c) rfl (ix2 p (⟨c.val, hc⟩ : Fin 3)) (fun b => ?_)).trans (hr _)
    match b with
    | ⟨0, _⟩ => rfl
    | ⟨1, _⟩ => rfl
  · -- column c falls in the second piece, which is read at (p, c − 3): the row is kept, and (c − 3) + 3 = c
    rw [dif_neg hc]
    refine (concatenate_pair_apply_right 1 R Dn h (ix2 p c) rfl rfl (ix2 p (⟨c.val - 3, by omega⟩ : Fin 1))
      (fun b hb => ?_) ?_).trans (hd _)
    · match b with
      | ⟨0, _⟩ => rfl
      | ⟨1, _⟩ => exact absurd rfl hb
    · show (c.val - 3) + 3 = c.val
      omega

/-! ## The body

`v0` is the loaded input block, `x1 … x12` the loaded weight blocks, in the order A₁ A₂ A₃ B₀ᵗ B₀ᵇ B₁ B₂ d Φ C₀ᵗ C₀ᵇ C₁.
Read as matrices they are the network's weights `weightsOfBlocks x1 … x12` (each field of that record is the block
at (k, j), by definition), and row p of `v0` is the network's input `rowOf v0 p`. -/

section
variable (v0 : FVec Ideal S4096x90 .f32)
    (x1 : FVec Ideal S63x128 .bf16) (x2 x3 : FVec Ideal S128x128 .bf16) (x4 : FVec Ideal S63x128 .bf16)
    (x5 x6 x7 : FVec Ideal S128x128 .bf16) (x8 : FVec Ideal S128x1 .bf16) (x9 : FVec Ideal S128x128 .bf16)
    (x10 : FVec Ideal S27x128 .bf16) (x11 : FVec Ideal S128x128 .bf16) (x12 : FVec Ideal S128x3 .bf16)

local notation "𝐖" => Spec.weightsOfBlocks x1 x2 x3 x4 x5 x6 x7 x8 x9 x10 x11 x12

/-- What the first half hands on besides its product: the view columns. Row p of it is the view encoding of row p. -/
theorem pay2_apply (p : Fin 4096) (k : Fin 27) :
    Gen.k0_pay2 (F := Ideal) v0 (ix2 p k) = Spec.view (Spec.rowOf v0 p) k :=
  slice_view v0 slices_S4096x90_o0_63_S4096x27 p k

/-- The first half: pos → h¹ → h² → h³ → g¹, and then the product g¹ · B₁ with its relu still to come.
    Entry (p, j) of its result is (g¹ · B₁) j on row p. -/
theorem pay3_apply (p : Fin 4096) (j : Fin 128) :
    Gen.k0_pay3 (F := Ideal) v0 x1 x2 x3 x4 x5 x6 (ix2 p j) = Spec.lin (Spec.g1 𝐖 (Spec.rowOf v0 p)) (𝐖).B1 j := by
  -- row p of the position columns is pos; the first layer and the cut layer both read it
  have hpos : ∀ k : Fin 63, extractStridedSlice S4096x63 ![0, 0] v0 slices_S4096x90_o0_0_S4096x63 (ix2 p k)
      = Spec.pos (Spec.rowOf v0 p) k := fun k => slice_pos v0 _ p k
  unfold Gen.k0_pay3
  -- the last product reads row p of its left operand, and it is enough that this row is g¹:
  refine mm_apply dot_S4096x128_S128x128_S4096x128_1_0_0_1_n_n rfl _ _ x6 _ _ p (fun k => ?_) j
  -- g¹ = relu (pos · B₀ᵗ + h³ · B₀ᵇ), given that row p of the second product's left operand is h³:
  refine layer2_apply dot_S4096x63_S63x128_S4096x128_1_0_0_1_n_n rfl dot_S4096x128_S128x128_S4096x128_1_0_0_1_n_n rfl
    _ _ _ _ x4 _ x5 _ _ _ p hpos (fun k => ?_) k
  -- h³ = relu (h² · A₃), given h²:
  refine layer_apply dot_S4096x128_S128x128_S4096x128_1_0_0_1_n_n rfl _ _ x3 _ _ p (fun k => ?_) k
  -- h² = relu (h¹ · A₂), given h¹:
  refine layer_apply dot_S4096x128_S128x128_S4096x128_1_0_0_1_n_n rfl _ _ x2 _ _ p (fun k => ?_) k
  -- h¹ = relu (pos · A₁)
  exact layer_apply dot_S4096x63_S63x128_S4096x128_1_0_0_1_n_n rfl _ _ x1 _ _ p hpos k

/-- The second half, from ANY two blocks `v2`, `v34` whose rows p are the view encoding and g¹ · B₁ of row p:
    g² = relu (that product), g³ = relu (g² · B₂), then σ = g³ · d and f = g³ · Φ, c = relu (view · C₀ᵗ + f · C₀ᵇ),
    rgb = c · C₁, and the stored block (rgb, σ). Entry (p, c) of it is `out` at c. -/
theorem pay1_apply (v2 : FVec Ideal S4096x27 .f32) (v34 : FVec Ideal S4096x128 .f32) (p : Fin 4096)
    (hv : ∀ k, v2 (ix2 p k) = Spec.view (Spec.rowOf v0 p) k)
    (ht : ∀ k, v34 (ix2 p k) = Spec.lin (Spec.g1 𝐖 (Spec.rowOf v0 p)) (𝐖).B1 k) (c : Fin 4) :
    Gen.k0_pay1 (F := Ideal) v2 v34 x7 x8 x9 x10 x11 x12 (ix2 p c) = Spec.out 𝐖 (Spec.rowOf v0 p) c := by
  -- g² = relu (g¹ · B₁) is the relu of the block handed over, and g³ = relu (g² · B₂) is one layer on top of it.
  -- Both the density and the feature vector read g³, so it is stated once.
  have hg3 : ∀ k : Fin 128,
      maximumf (matmul dot_S4096x128_S128x128_S4096x128_1_0_0_1_n_n none
          (truncf .bf16 (maximumf v34 (broadcast S4096x128 (Scalar.ofBits (F := Ideal) .f32 0x00000000#32)))
            bitsLt_bf16_f32)
          (shapeCast S128x128 x7 shapeCasts_S128x128_S128x128)
          (constant (F := Ideal) S4096x128 .f32 0x00000000#32))
        (broadcast S4096x128 (Scalar.ofBits (F := Ideal) .f32 0x00000000#32)) (ix2 p k)
      = Spec.g3 𝐖 (Spec.rowOf v0 p) k :=
    fun k => layer_apply dot_S4096x128_S128x128_S4096x128_1_0_0_1_n_n rfl _ bitsLt_bf16_f32 x7
      shapeCasts_S128x128_S128x128 _ p (fun k => (relu_apply v34 p k).trans (congrArg Spec.relu (ht k))) k
  unfold Gen.k0_pay1
  -- the stored block is (rgb, σ) column by column; it is enough that row p of its two pieces is rgb and σ
  refine concat_apply _ _ _ p _ _ (fun j => ?_) (fun j => ?_) c
  · -- rgb = c · C₁, given that row p of the left operand is the colour layer c:
    refine mm_apply dot_S4096x128_S128x3_S4096x3_1_0_0_1_n_n rfl _ _ x12 _ _ p (fun k => ?_) j
    -- c = relu (view · C₀ᵗ + f · C₀ᵇ), given that row p of the second product's left operand is f:
    refine layer2_apply dot_S4096x27_S27x128_S4096x128_1_0_0_1_n_n rfl dot_S4096x128_S128x128_S4096x128_1_0_0_1_n_n rfl
      _ _ _ _ x10 _ x11 _ _ _ p hv (fun k => ?_) k
    -- f = g³ · Φ
    exact mm_apply dot_S4096x128_S128x128_S4096x128_1_0_0_1_n_n rfl _ _ x9 _ _ p hg3 k
  · -- σ = g³ · d
    exact mm_apply dot_S4096x128_S128x1_S4096x1_1_0_0_1_n_n rfl _ _ x8 _ _ p hg3 j

end

/-- THE STORED VALUE AT ONE ENTRY. The second half applied to what the first half hands on: entry (p, c) of the block
    the body stores is entry c of the network's result on row p of the loaded input block, with the twelve loaded
    weight blocks as its weights. -/
theorem payload_apply (v0 : FVec Ideal S4096x90 .f32)
    (x1 : FVec Ideal S63x128 .bf16) (x2 x3 : FVec Ideal S128x128 .bf16) (x4 : FVec Ideal S63x128 .bf16)
    (x5 x6 x7 : FVec Ideal S128x128 .bf16) (x8 : FVec Ideal S128x1 .bf16) (x9 : FVec Ideal S128x128 .bf16)
    (x10 : FVec Ideal S27x128 .bf16) (x11 : FVec Ideal S128x128 .bf16) (x12 : FVec Ideal S128x3 .bf16)
    (p : Fin 4096) (c : Fin 4) :
    Gen.k0_pay1 (F := Ideal) (Gen.k0_pay2 v0) (Gen.k0_pay3 v0 x1 x2 x3 x4 x5 x6) x7 x8 x9 x10 x11 x12 (ix2 p c)
      = Cert.Spec.out (Cert.Spec.weightsOfBlocks x1 x2 x3 x4 x5 x6 x7 x8 x9 x10 x11 x12) (Cert.Spec.rowOf v0 p) c :=
  pay1_apply v0 x1 x2 x3 x4 x5 x6 x7 x8 x9 x10 x11 x12 (Gen.k0_pay2 v0) (Gen.k0_pay3 v0 x1 x2 x3 x4 x5 x6) p
    (pay2_apply v0 p) (pay3_apply v0 x1 x2 x3 x4 x5 x6 x7 x8 x9 x10 x11 x12 p) c

end Cert.KernelIdeal.Body

end
-- ==== Proof.Blocks.lean ====
/-
  From the blocks to the whole result array.

  The grid has 256 points. At point t the input window holds rows 4096·t … 4096·t + 4095 of x, each of the
  twelve weight windows holds its whole array (its one block, at block index (0, 0), at every point), and the
  output window's block is rows 4096·t … 4096·t + 4095 of the result. So what point t writes back is the network
  applied to those rows of x with the twelve weight arrays, that is block t of the network's result on all of x;
  and the 256 blocks cover the million rows (row r lies in block r / 4096), so after the run the result array is
  the network's result on all of x.
-/
import proofs.«102627_j46471546142971_2_alg».proof.Proof.Gen.KernelIdeal.Value
import proofs.«102627_j46471546142971_2_alg».proof.Proof.Spec
import proofs.«102627_j46471546142971_2_alg».proof.Proof.HostArrays
import proofs.«102627_j46471546142971_2_alg».proof.Proof.Payload
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ) (ρ : Dev nD → PrngReg)

/-- The zero offsets of a whole-buffer access, however they are spelt. -/
theorem hz : (![0, 0] : Fin 2 → Nat) = fun _ => 0 := funext fun a => by fin_cases a <;> rfl

/-- The block index of the input window at every point, decided over the 256 points: one block of rows further
    down per point, column block 0. -/
theorem idx0 : ∀ t : Fin cfg0.N, win0_0.index t (0 : Fin 2) = t.val ∧ win0_0.index t (1 : Fin 2) = 0 :=
  (by decide +kernel : ∀ t : Fin grid0.N, _)

/-- The output window's likewise. -/
theorem idx13 : ∀ t : Fin cfg0.N, win0_13.index t (0 : Fin 2) = t.val ∧ win0_13.index t (1 : Fin 2) = 0 :=
  (by decide +kernel : ∀ t : Fin grid0.N, _)

/-! Every weight window stays at block (0, 0). -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)

/-! ## The input blocks, as entries of the arrays the region finds -/

/-- Row p of the input block at point t is row 4096·t + p of x. -/
theorem iblk0_apply (c : Dev nD) (t : Fin cfg0.N) (p : Fin 4096) (k : Fin 90) (r : Fin 1048576) (hr : r.val = t.val * 4096 + p.val) :
    (iblk m c 0 t : S4096x90.Idx → EReal) (ix2 p k) = (m ((c : Thread nD τ).loc main_arg0) : S1048576x90.Idx → EReal) (ix2 r k) := by
  obtain ⟨hi, hi'⟩ := idx0 t
  unfold iblk
  rw [View.read_apply]
  show V m c main_arg0 _ = m (c.tc.loc main_arg0) _
  rw [V_main_arg0]
  refine congrArg (m (c.tc.loc main_arg0)) ?_
  funext a
  apply Fin.ext
  match a with
  | ⟨0, _⟩ => show win0_0.index t (0 : Fin 2) * 4096 + 1 * p.val = r.val; rw [hi, hr]; omega
  | ⟨1, _⟩ => show win0_0.index t (1 : Fin 2) * 90 + 1 * k.val = k.val; rw [hi']; omega

/-! ## A weight window's block is its whole array -/

theorem iblk1_apply (c : Dev nD) (t : Fin cfg0.N) (k : Fin 63) (j : Fin 128) :
    (iblk m c 1 t : S63x128.Idx → EReal) (ix2 k j) = (V m c main_v6 : S63x128.Idx → EReal) (ix2 k j) := by
  obtain ⟨hi, hi'⟩ := idx1 t
  unfold iblk
  rw [View.read_apply]
  show V m c main_v6 _ = V m c main_v6 _
  refine congrArg (V m c main_v6) ?_
  funext a
  apply Fin.ext
  match a with
  | ⟨0, _⟩ => show win0_1.index t (0 : Fin 2) * 63 + 1 * k.val = k.val; rw [hi]; omega
  | ⟨1, _⟩ => show win0_1.index t (1 : Fin 2) * 128 + 1 * j.val = j.val; rw [hi']; omega

theorem iblk2_apply (c : Dev nD) (t : Fin cfg0.N) (k : Fin 128) (j : Fin 128) :
    (iblk m c 2 t : S128x128.Idx → EReal) (ix2 k j) = (V m c main_v7 : S128x128.Idx → EReal) (ix2 k j) := by
  obtain ⟨hi, hi'⟩ := idx2 t
  unfold iblk
  rw [View.read_apply]
  show V m c main_v7 _ = V m c main_v7 _
  refine congrArg (V m c main_v7) ?_
  funext a
  apply Fin.ext
  match a with
  | ⟨0, _⟩ => show win0_2.index t (0 : Fin 2) * 128 + 1 * k.val = k.val; rw [hi]; omega
  | ⟨1, _⟩ => show win0_2.index t (1 : Fin 2) * 128 + 1 * j.val = j.val; rw [hi']; omega

theorem iblk3_apply (c : Dev nD) (t : Fin cfg0.N) (k : Fin 128) (j : Fin 128) :
    (iblk m c 3 t : S128x128.Idx → EReal) (ix2 k j) = (V m c main_v8 : S128x128.Idx → EReal) (ix2 k j) := by
  obtain ⟨hi, hi'⟩ := idx3 t
  unfold iblk
  rw [View.read_apply]
  show V m c main_v8 _ = V m c main_v8 _
  refine congrArg (V m c main_v8) ?_
  funext a
  apply Fin.ext
  match a with
  | ⟨0, _⟩ => show win0_3.index t (0 : Fin 2) * 128 + 1 * k.val = k.val; rw [hi]; omega
  | ⟨1, _⟩ => show win0_3.index t (1 : Fin 2) * 128 + 1 * j.val = j.val; rw [hi']; omega

theorem iblk4_apply (c : Dev nD) (t : Fin cfg0.N) (k : Fin 63) (j : Fin 128) :
    (iblk m c 4 t : S63x128.Idx → EReal) (ix2 k j) = (V m c main_v9 : S63x128.Idx → EReal) (ix2 k j) := by
  obtain ⟨hi, hi'⟩ := idx4 t
  unfold iblk
  rw [View.read_apply]
  show V m c main_v9 _ = V m c main_v9 _
  refine congrArg (V m c main_v9) ?_
  funext a
  apply Fin.ext
  match a with
  | ⟨0, _⟩ => show win0_4.index t (0 : Fin 2) * 63 + 1 * k.val = k.val; rw [hi]; omega
  | ⟨1, _⟩ => show win0_4.index t (1 : Fin 2) * 128 + 1 * j.val = j.val; rw [hi']; omega

theorem iblk5_apply (c : Dev nD) (t : Fin cfg0.N) (k : Fin 128) (j : Fin 128) :
    (iblk m c 5 t : S128x128.Idx → EReal) (ix2 k j) = (V m c main_v10 : S128x128.Idx → EReal) (ix2 k j) := by
  obtain ⟨hi, hi'⟩ := idx5 t
  unfold iblk
  rw [View.read_apply]
  show V m c main_v10 _ = V m c main_v10 _
  refine congrArg (V m c main_v10) ?_
  funext a
  apply Fin.ext
  match a with
  | ⟨0, _⟩ => show win0_5.index t (0 : Fin 2) * 128 + 1 * k.val = k.val; rw [hi]; omega
  | ⟨1, _⟩ => show win0_5.index t (1 : Fin 2) * 128 + 1 * j.val = j.val; rw [hi']; omega

theorem iblk6_apply (c : Dev nD) (t : Fin cfg0.N) (k : Fin 128) (j : Fin 128) :
    (iblk m c 6 t : S128x128.Idx → EReal) (ix2 k j) = (V m c main_v11 : S128x128.Idx → EReal) (ix2 k j) := by
  obtain ⟨hi, hi'⟩ := idx6 t
  unfold iblk
  rw [View.read_apply]
  show V m c main_v11 _ = V m c main_v11 _
  refine congrArg (V m c main_v11) ?_
  funext a
  apply Fin.ext
  match a with
  | ⟨0, _⟩ => show win0_6.index t (0 : Fin 2) * 128 + 1 * k.val = k.val; rw [hi]; omega
  | ⟨1, _⟩ => show win0_6.index t (1 : Fin 2) * 128 + 1 * j.val = j.val; rw [hi']; omega

theorem iblk7_apply (c : Dev nD) (t : Fin cfg0.N) (k : Fin 128) (j : Fin 128) :
    (iblk m c 7 t : S128x128.Idx → EReal) (ix2 k j) = (V m c main_v12 : S128x128.Idx → EReal) (ix2 k j) := by
  obtain ⟨hi, hi'⟩ := idx7 t
  unfold iblk
  rw [View.read_apply]
  show V m c main_v12 _ = V m c main_v12 _
  refine congrArg (V m c main_v12) ?_
  funext a
  apply Fin.ext
  match a with
  | ⟨0, _⟩ => show win0_7.index t (0 : Fin 2) * 128 + 1 * k.val = k.val; rw [hi]; omega
  | ⟨1, _⟩ => show win0_7.index t (1 : Fin 2) * 128 + 1 * j.val = j.val; rw [hi']; omega

theorem iblk8_apply (c : Dev nD) (t : Fin cfg0.N) (k : Fin 128) (j : Fin 1) :
    (iblk m c 8 t : S128x1.Idx → EReal) (ix2 k j) = (V m c main_v13 : S128x1.Idx → EReal) (ix2 k j) := by
  obtain ⟨hi, hi'⟩ := idx8 t
  unfold iblk
  rw [View.read_apply]
  show V m c main_v13 _ = V m c main_v13 _
  refine congrArg (V m c main_v13) ?_
  funext a
  apply Fin.ext
  match a with
  | ⟨0, _⟩ => show win0_8.index t (0 : Fin 2) * 128 + 1 * k.val = k.val; rw [hi]; omega
  | ⟨1, _⟩ => show win0_8.index t (1 : Fin 2) * 1 + 1 * j.val = j.val; rw [hi']; omega

theorem iblk9_apply (c : Dev nD) (t : Fin cfg0.N) (k : Fin 128) (j : Fin 128) :
    (iblk m c 9 t : S128x128.Idx → EReal) (ix2 k j) = (V m c main_v14 : S128x128.Idx → EReal) (ix2 k j) := by
  obtain ⟨hi, hi'⟩ := idx9 t
  unfold iblk
  rw [View.read_apply]
  show V m c main_v14 _ = V m c main_v14 _
  refine congrArg (V m c main_v14) ?_
  funext a
  apply Fin.ext
  match a with
  | ⟨0, _⟩ => show win0_9.index t (0 : Fin 2) * 128 + 1 * k.val = k.val; rw [hi]; omega
  | ⟨1, _⟩ => show win0_9.index t (1 : Fin 2) * 128 + 1 * j.val = j.val; rw [hi']; omega

theorem iblk10_apply (c : Dev nD) (t : Fin cfg0.N) (k : Fin 27) (j : Fin 128) :
    (iblk m c 10 t : S27x128.Idx → EReal) (ix2 k j) = (V m c main_v15 : S27x128.Idx → EReal) (ix2 k j) := by
  obtain ⟨hi, hi'⟩ := idx10 t
  unfold iblk
  rw [View.read_apply]
  show V m c main_v15 _ = V m c main_v15 _
  refine congrArg (V m c main_v15) ?_
  funext a
  apply Fin.ext
  match a with
  | ⟨0, _⟩ => show win0_10.index t (0 : Fin 2) * 27 + 1 * k.val = k.val; rw [hi]; omega
  | ⟨1, _⟩ => show win0_10.index t (1 : Fin 2) * 128 + 1 * j.val = j.val; rw [hi']; omega

theorem iblk11_apply (c : Dev nD) (t : Fin cfg0.N) (k : Fin 128) (j : Fin 128) :
    (iblk m c 11 t : S128x128.Idx → EReal) (ix2 k j) = (V m c main_v16 : S128x128.Idx → EReal) (ix2 k j) := by
  obtain ⟨hi, hi'⟩ := idx11 t
  unfold iblk
  rw [View.read_apply]
  show V m c main_v16 _ = V m c main_v16 _
  refine congrArg (V m c main_v16) ?_
  funext a
  apply Fin.ext
  match a with
  | ⟨0, _⟩ => show win0_11.index t (0 : Fin 2) * 128 + 1 * k.val = k.val; rw [hi]; omega
  | ⟨1, _⟩ => show win0_11.index t (1 : Fin 2) * 128 + 1 * j.val = j.val; rw [hi']; omega

theorem iblk12_apply (c : Dev nD) (t : Fin cfg0.N) (k : Fin 128) (j : Fin 3) :
    (iblk m c 12 t : S128x3.Idx → EReal) (ix2 k j) = (V m c main_v17 : S128x3.Idx → EReal) (ix2 k j) := by
  obtain ⟨hi, hi'⟩ := idx12 t
  unfold iblk
  rw [View.read_apply]
  show V m c main_v17 _ = V m c main_v17 _
  refine congrArg (V m c main_v17) ?_
  funext a
  apply Fin.ext
  match a with
  | ⟨0, _⟩ => show win0_12.index t (0 : Fin 2) * 128 + 1 * k.val = k.val; rw [hi]; omega
  | ⟨1, _⟩ => show win0_12.index t (1 : Fin 2) * 3 + 1 * j.val = j.val; rw [hi']; omega

/-! ## The twelve weight blocks are the nine weight arguments, cut -/

/-- Two families of weights with the same twelve matrices are the same family. -/
theorem weights_ext {W W' : Spec.Weights} (h1 : W.A1 = W'.A1) (h2 : W.A2 = W'.A2) (h3 : W.A3 = W'.A3) (h4 : W.B0t = W'.B0t)
    (h5 : W.B0b = W'.B0b) (h6 : W.B1 = W'.B1) (h7 : W.B2 = W'.B2) (h8 : W.D = W'.D) (h9 : W.Phi = W'.Phi)
    (h10 : W.C0t = W'.C0t) (h11 : W.C0b = W'.C0b) (h12 : W.C1 = W'.C1) : W = W' := by
  cases W; cases W'
  simp only [Spec.Weights.mk.injEq]
  exact ⟨h1, h2, h3, h4, h5, h6, h7, h8, h9, h10, h11, h12⟩

/-- Twelve matrices that are, entry by entry, the nine weight arrays cut as the network cuts them give the
    network's weights. Stated for any twelve matrices; the windows' blocks are put in last. -/
theorem weights_eq_of (b1 : S63x128.Idx → EReal) (b2 : S128x128.Idx → EReal) (b3 : S128x128.Idx → EReal) (b4 : S63x128.Idx → EReal) (b5 : S128x128.Idx → EReal) (b6 : S128x128.Idx → EReal) (b7 : S128x128.Idx → EReal) (b8 : S128x1.Idx → EReal) (b9 : S128x128.Idx → EReal) (b10 : S27x128.Idx → EReal) (b11 : S128x128.Idx → EReal) (b12 : S128x3.Idx → EReal)
    (W1 : S63x128.Idx → EReal) (W2 : S128x128.Idx → EReal) (W3 : S128x128.Idx → EReal) (W4 : S191x128.Idx → EReal) (W5 : S128x128.Idx → EReal) (W6 : S128x128.Idx → EReal) (W7 : S128x129.Idx → EReal) (W8 : S155x128.Idx → EReal) (W9 : S128x3.Idx → EReal)
    (h1 : ∀ (k : Fin 63) (j : Fin 128), b1 (ix2 k j) = W1 (ix2 k j))
    (h2 : ∀ (k : Fin 128) (j : Fin 128), b2 (ix2 k j) = W2 (ix2 k j))
    (h3 : ∀ (k : Fin 128) (j : Fin 128), b3 (ix2 k j) = W3 (ix2 k j))
    (h4 : ∀ (k : Fin 63) (j : Fin 128), b4 (ix2 k j) = W4 (ix2 (⟨k.val, by omega⟩ : Fin 191) j))
    (h5 : ∀ (k : Fin 128) (j : Fin 128), b5 (ix2 k j) = W4 (ix2 (⟨63 + k.val, by omega⟩ : Fin 191) j))
    (h6 : ∀ (k : Fin 128) (j : Fin 128), b6 (ix2 k j) = W5 (ix2 k j))
    (h7 : ∀ (k : Fin 128) (j : Fin 128), b7 (ix2 k j) = W6 (ix2 k j))
    (h8 : ∀ (k : Fin 128) (j : Fin 1), b8 (ix2 k j) = W7 (ix2 k (⟨j.val, by omega⟩ : Fin 129)))
    (h9 : ∀ (k : Fin 128) (j : Fin 128), b9 (ix2 k j) = W7 (ix2 k (⟨1 + j.val, by omega⟩ : Fin 129)))
    (h10 : ∀ (k : Fin 27) (j : Fin 128), b10 (ix2 k j) = W8 (ix2 (⟨k.val, by omega⟩ : Fin 155) j))
    (h11 : ∀ (k : Fin 128) (j : Fin 128), b11 (ix2 k j) = W8 (ix2 (⟨27 + k.val, by omega⟩ : Fin 155) j))
    (h12 : ∀ (k : Fin 128) (j : Fin 3), b12 (ix2 k j) = W9 (ix2 k j)) :
    Spec.weightsOfBlocks b1 b2 b3 b4 b5 b6 b7 b8 b9 b10 b11 b12 = Spec.weightsOf W1 W2 W3 W4 W5 W6 W7 W8 W9 :=
  weights_ext
    (funext fun k => funext fun j => h1 k j)
    (funext fun k => funext fun j => h2 k j)
    (funext fun k => funext fun j => h3 k j)
    (funext fun k => funext fun j => h4 k j)
    (funext fun k => funext fun j => h5 k j)
    (funext fun k => funext fun j => h6 k j)
    (funext fun k => funext fun j => h7 k j)
    (funext fun k => funext fun j => h8 k j)
    (funext fun k => funext fun j => h9 k j)
    (funext fun k => funext fun j => h10 k j)
    (funext fun k => funext fun j => h11 k j)
    (funext fun k => funext fun j => h12 k j)

/-- A block of 4096 rows whose row p is row r of x, handed weights that are the network's: entry (p, q) of what the
    body stores is entry (r, q) of the network's result on all of x. The body's stored value at an entry is the
    network on that row of the block (the payload lemma); the rest is the two hypotheses. -/
theorem stored_eq (v0 : S4096x90.Idx → EReal) (b1 : S63x128.Idx → EReal) (b2 : S128x128.Idx → EReal) (b3 : S128x128.Idx → EReal) (b4 : S63x128.Idx → EReal) (b5 : S128x128.Idx → EReal) (b6 : S128x128.Idx → EReal) (b7 : S128x128.Idx → EReal) (b8 : S128x1.Idx → EReal) (b9 : S128x128.Idx → EReal) (b10 : S27x128.Idx → EReal) (b11 : S128x128.Idx → EReal) (b12 : S128x3.Idx → EReal)
    (X : S1048576x90.Idx → EReal) (W1 : S63x128.Idx → EReal) (W2 : S128x128.Idx → EReal) (W3 : S128x128.Idx → EReal) (W4 : S191x128.Idx → EReal) (W5 : S128x128.Idx → EReal) (W6 : S128x128.Idx → EReal) (W7 : S128x129.Idx → EReal) (W8 : S155x128.Idx → EReal) (W9 : S128x3.Idx → EReal)
    (hW : Spec.weightsOfBlocks b1 b2 b3 b4 b5 b6 b7 b8 b9 b10 b11 b12 = Spec.weightsOf W1 W2 W3 W4 W5 W6 W7 W8 W9)
    (p : Fin 4096) (q : Fin 4) (r : Fin 1048576) (hrow : ∀ k : Fin 90, v0 (ix2 p k) = X (ix2 r k)) :
    k0_pay1 (F := Ideal) (k0_pay2 v0) (k0_pay3 v0 b1 b2 b3 b4 b5 b6) b7 b8 b9 b10 b11 b12 (ix2 p q)
      = Spec.G X W1 W2 W3 W4 W5 W6 W7 W8 W9 (ix2 r q) := by
  rw [Body.payload_apply v0 b1 b2 b3 b4 b5 b6 b7 b8 b9 b10 b11 b12 p q, Spec.G_ix2, hW]
  exact congrArg (fun x => Spec.out (Spec.weightsOf W1 W2 W3 W4 W5 W6 W7 W8 W9) x q) (funext hrow)

/-! ## What point t writes back -/

/-- Entry (p, q) of the output block at point t is entry (4096·t + p, q) of the result array. -/
theorem emb13 (t : Fin cfg0.N) (p : Fin 4096) (q : Fin 4) (r : Fin 1048576) (hr : r.val = t.val * 4096 + p.val) :
    ((cfg0.win 13).blk t).view.emb (ix2 p q) = (ix2 r q : S1048576x4.Idx) := by
  obtain ⟨hi, hi'⟩ := idx13 t
  funext a
  apply Fin.ext
  match a with
  | ⟨0, _⟩ => show win0_13.index t (0 : Fin 2) * 4096 + 1 * p.val = r.val; rw [hi, hr]; omega
  | ⟨1, _⟩ => show win0_13.index t (1 : Fin 2) * 4 + 1 * q.val = q.val; rw [hi']; omega

/-- At every point the weights the body is handed are the weights of the network: each block is its whole array,
    and each array is the argument it was cut from, entry by entry. -/
theorem weights_eq (c : Dev nD) (t : Fin cfg0.N) :
    Spec.weightsOfBlocks (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
      = Spec.weightsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  weights_eq_of _ _ _ _ _ _ _ _ _ _ _ _ _ _ _ _ _ _ _ _ _
    (fun k j => (iblk1_apply m c t k j).trans (Entry.V_v6 m c k j))
    (fun k j => (iblk2_apply m c t k j).trans (Entry.V_v7 m c k j))
    (fun k j => (iblk3_apply m c t k j).trans (Entry.V_v8 m c k j))
    (fun k j => (iblk4_apply m c t k j).trans (Entry.V_v9 m c k j))
    (fun k j => (iblk5_apply m c t k j).trans (Entry.V_v10 m c k j))
    (fun k j => (iblk6_apply m c t k j).trans (Entry.V_v11 m c k j))
    (fun k j => (iblk7_apply m c t k j).trans (Entry.V_v12 m c k j))
    (fun k j => (iblk8_apply m c t k j).trans (Entry.V_v13 m c k j))
    (fun k j => (iblk9_apply m c t k j).trans (Entry.V_v14 m c k j))
    (fun k j => (iblk10_apply m c t k j).trans (Entry.V_v15 m c k j))
    (fun k j => (iblk11_apply m c t k j).trans (Entry.V_v16 m c k j))
    (fun k j => (iblk12_apply m c t k j).trans (Entry.V_v17 m c k j))

/-- WHAT POINT t WRITES BACK is block t of the network's result on all of x. -/
theorem flushed_eq (c : Dev nD) (t : Fin cfg0.N) :
    (dats m 0 c).flushed 13 t = ((cfg0.win 13).blk t).view.read (Elt Ideal) (Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [flushed13]
  unfold out0_13
  rw [View.canon_unit_zero hz]
  simp only [View.ld_unit_zero (S := S4096x90) hz, View.ld_unit_zero (S := S63x128) hz, View.ld_unit_zero (S := S128x128) hz,
    View.ld_unit_zero (S := S128x1) hz, View.ld_unit_zero (S := S27x128) hz, View.ld_unit_zero (S := S128x3) hz]
  refine funext fun (y : S4096x4.Idx) => ?_
  obtain ⟨p, q, rfl⟩ : ∃ (p : Fin 4096) (q : Fin 4), y = ix2 p q := ⟨y 0, y 1, eq_ix2 y⟩
  have ht : t.val < 256 := lt_of_lt_of_eq t.isLt (N_0 : cfg0.N = 256)
  have hr : t.val * 4096 + p.val < 1048576 := by have := p.isLt; omega
  show k0_pay1 (k0_pay2 (iblk m c 0 t)) (k0_pay3 (iblk m c 0 t) (iblk m c 1 t) (iblk m c 2 t) (iblk m c 3 t) (iblk m c 4 t) (iblk m c 5 t) (iblk m c 6 t)) (iblk m c 7 t) (iblk m c 8 t) (iblk m c 9 t) (iblk m c 10 t) (iblk m c 11 t) (iblk m c 12 t) (ix2 p q)
    = (Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (((cfg0.win 13).blk t).view.emb (ix2 p q))
  rw [emb13 t p q ⟨t.val * 4096 + p.val, hr⟩ rfl]
  exact stored_eq _ _ _ _ _ _ _ _ _ _ _ _ _ _ _ _ _ _ _ _ _ _ _ (weights_eq m c t) p q _
    (fun k => iblk0_apply m c t p k ⟨t.val * 4096 + p.val, hr⟩ rfl)

/-! ## The 256 blocks cover the array -/

/-- An entry of the result array is in point t's block exactly when each of its coordinates is in the block's range
    on that axis. -/
theorem mem_blk (t : Fin cfg0.N) (i : S1048576x4.Idx) :
    i ∈ ((cfg0.win 13).blk t).view.set ↔ ∀ a : Fin 2, win0_13.index t a * S4096x4.size a ≤ (i a).val
      ∧ (i a).val < win0_13.index t a * S4096x4.size a + S4096x4.size a := by
  show i ∈ ((View.whole main_v18).slice (win0_13.rect t)).set ↔ _
  rw [View.set_slice_whole, Rect.mem_set_unit]
  exact Iff.rfl

/-- Every entry of the result array lies in some point's block: row r lies in block r / 4096, and every point
    writes its block back. -/
theorem cover (i : S1048576x4.Idx) :
    ∃ t : Fin cfg0.N, (cfg0.win 13).flush t = true ∧ i ∈ ((cfg0.win 13).blk t).view.set := by
  have h0 : (i 0).val < 1048576 := (i 0).isLt
  have h1 : (i 1).val < 4 := (i 1).isLt
  have hN : cfg0.N = 256 := N_0
  have hq : (i 0).val / 4096 < cfg0.N := lt_of_lt_of_eq (by omega : (i 0).val / 4096 < 256) hN.symm
  obtain ⟨e0, e1⟩ := idx13 ⟨(i 0).val / 4096, hq⟩
  refine ⟨⟨(i 0).val / 4096, hq⟩, flush0_13 _, ?_⟩
  rw [mem_blk]
  intro a
  match a with
  | ⟨0, _⟩ =>
    show win0_13.index ⟨(i 0).val / 4096, hq⟩ (0 : Fin 2) * 4096 ≤ (i 0).val
      ∧ (i 0).val < win0_13.index ⟨(i 0).val / 4096, hq⟩ (0 : Fin 2) * 4096 + 4096
    rw [e0]
    show (i 0).val / 4096 * 4096 ≤ (i 0).val ∧ (i 0).val < (i 0).val / 4096 * 4096 + 4096
    omega
  | ⟨1, _⟩ =>
    show win0_13.index ⟨(i 0).val / 4096, hq⟩ (1 : Fin 2) * 4 ≤ (i 1).val
      ∧ (i 1).val < win0_13.index ⟨(i 0).val / 4096, hq⟩ (1 : Fin 2) * 4 + 4
    rw [e1]
    omega

/-- THE RESULT ARRAY after the run is the network's result on all of x: every point writes block t of it, and the
    blocks cover it. -/
theorem final (c : Dev nD) : (dats m 0 c).arrAt 13 cfg0.N = (Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (dats m 0 c).arrAt_eq_of_cover 13 (Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (fun t _ => flushed_eq m c t) cover

/-! ## The run, read -/

/-- Every weakly fair execution of the kernel's program ends with the result array at the network's result on all of
    x and with the ten argument arrays as they were. -/
theorem run : θ_run defs (onTc (τ := τ) (main (F := Ideal))) ⟨m, fun _ => 0, ρ⟩ fun r => ∀ c : Dev nD,
      r.2.mem ((c : Thread nD τ).loc main_v18) = (Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Whole

end
-- ==== Proof.RefValue.lean ====
/-
  The reference program computes the network of the specification.

  The reference is a straight line of 23 array operations over the million input rows. This file reads each of them at
  one entry (r, j) and shows that row r of every intermediate array is the corresponding vector of the network of
  Spec.lean on the input row x = row r of the argument array, with the weights W cut out of the nine weight arrays:

    slices of the input          pos x, view x
    product, then max (·, 0)     h¹, h², h³              (three times)
    the joined row               (pos x, h³)             of length 63 + 128
    product, then max (·, 0)     g¹                      ← the one law, below
    product, then max (·, 0)     g², g³
    product with the 128 × 129 matrix, then its column 0 and its columns 1 … 128:   σ and f
    the joined row               (view x, f)             of length 27 + 128
    product, then max (·, 0)     c                       ← the same law
    product                      rgb
    the joined row               (rgb, σ)                the result row.

  Every step but two is a definition read at an index: a slice reads its source at a shifted column, max (·, 0) is taken
  entry by entry against the zero word that the specification's max (·, 0) also carries, and entry (r, j) of a product
  is the sum over k of (left operand at (r, k)) · (matrix at (k, j)), which is `Spec.lin` of row r of the left operand.

  THE ONE LAW. The reference holds B₀ whole (191 × 128) and multiplies it by the joined row (pos x, h³); the network is
  written with B₀ cut after its 63rd row, as pos x · B₀ᵗ + h³ · B₀ᵇ. These agree because a sum over the joined row, cut
  where the row is joined, is the sum of the two partial sums:

      ∑_{k < a + b} (u, v)_k · A_{k j}  =  ∑_{k < a} u_k · A_{k j}  +  ∑_{k < b} v_k · A_{a + k, j}.

  This is `lin_join`, stated for all lengths a and b and used twice (a = 63 for g¹, a = 27 for c; b = 128 both times).
  It uses only that a finite sum over Fin (a + b) splits into its first a and its last b terms, which holds in any
  commutative additive monoid; the terms may be infinite, and no finiteness of the entries is assumed anywhere.
-/
import proofs.«102627_j46471546142971_2_alg».proof.Proof.Gen.ReferenceIdeal.Read
import proofs.«102627_j46471546142971_2_alg».proof.Proof.Spec
import proofs.«102627_j46471546142971_2_alg».proof.Proof.LibPlainDot
import Idealize.ShloMosaic.Lib.ValueLayout
import Idealize.ShloMosaic.Lib.ValueIdx
import Idealize.ShloMosaic.Lib.Pipeline.Value
import Idealize.ShloMosaic.PureOps.Ideal.Laws

noncomputable section

open Cert.ReferenceIdeal Cert.ReferenceIdeal.Gen Cert.ReferenceIdeal.Read Idealize.ShloMosaic Idealize.ShloMosaic.ValueIdx

namespace Cert.ReferenceIdeal.RefValue

/-! ## Joined rows and the law of the cut sum -/

/-- The row (u, v) of length a + b: entry k is u k for k < a and v (k - a) from a on. -/
def join {a b : Nat} (u : Fin a → EReal) (v : Fin b → EReal) (k : Fin (a + b)) : EReal :=
  if h : k.val < a then u ⟨k.val, h⟩ else v ⟨k.val - a, by have := k.isLt; omega⟩

/-- The first a entries of (u, v) are u. -/
theorem join_left {a b : Nat} (u : Fin a → EReal) (v : Fin b → EReal) (k : Fin a) :
    join u v (Fin.castAdd b k) = u k := by
  unfold join
  rw [dif_pos (show (Fin.castAdd b k).val < a from k.isLt)]
  rfl

/-- Entry a + k of (u, v) is v k. -/
theorem join_right {a b : Nat} (u : Fin a → EReal) (v : Fin b → EReal) (k : Fin b) :
    join u v (Fin.natAdd a k) = v k := by
  unfold join
  rw [dif_neg (show ¬ (Fin.natAdd a k).val < a from Nat.not_lt.2 (Nat.le_add_right a k.val))]
  exact congrArg v (Fin.ext (Nat.add_sub_cancel_left a k.val))

/-- THE LAW: the joined row (u, v) times a matrix A with a + b rows is u times the top a rows of A plus v times the
    bottom b rows. The sum over Fin (a + b) is cut after its a-th term; on the first part the row is u and the matrix
    row is k, on the second the row is v and the matrix row is a + k. -/
theorem lin_join {a b n : Nat} (u : Fin a → EReal) (v : Fin b → EReal) (A : Fin (a + b) → Fin n → EReal)
    (At : Fin a → Fin n → EReal) (Ab : Fin b → Fin n → EReal)
    (ht : ∀ k j, A (Fin.castAdd b k) j = At k j) (hb : ∀ k j, A (Fin.natAdd a k) j = Ab k j) (j : Fin n) :
    Spec.lin (join u v) A j = Spec.lin u At j + Spec.lin v Ab j := by
  unfold Spec.lin
  rw [Fin.sum_univ_add]
  refine congrArg₂ (· + ·) (Finset.sum_congr rfl fun k _ => ?_) (Finset.sum_congr rfl fun k _ => ?_)
  · rw [join_left, ht]
  · rw [join_right, hb]

/-! ## The three kinds of operation, read at an entry -/

/-- A product: if row r of the left operand is the vector v, entry (r, j) of the product is v times the matrix, at j. -/
theorem dot_lin {M K N : Nat} (lhs : FVec Ideal ⟨2, ![M, K]⟩ .f32) (rhs : FVec Ideal ⟨2, ![K, N]⟩ .f32)
    (r : Fin M) (v : Fin K → EReal) (hv : ∀ k, lhs (ix2 r k) = v k) (j : Fin N) :
    Host.dotGeneral (DotDims.plain M K N) none lhs rhs (ix2 r j) = Spec.lin v (fun k q => rhs (ix2 k q)) j := by
  refine (LibPlainDot.dotGeneral_apply none .single lhs rhs r j).trans ?_
  exact Finset.sum_congr rfl fun k _ => by rw [hv k]

/-- max (·, 0): where the second operand is the zero word and the first is v, the maximum is relu v. -/
theorem relu_at {s : Shape} (a z : FVec Ideal s .f32) (i : s.Idx) (v : EReal) (hz : z i = Spec.zero) (ha : a i = v) :
    maximumf a z i = Spec.relu v := by
  rw [maximumf_apply, hz, ha]; rfl

/-- Two arrays joined along their columns, at a column k of the first: the first array at (r, k). -/
theorem cat_left {n a b c : Nat} (x₁ : (⟨2, ![n, a]⟩ : Shape).Idx → EReal) (x₂ : (⟨2, ![n, b]⟩ : Shape).Idx → EReal)
    (h : Shape.Concatenates [⟨2, ![n, a]⟩, ⟨2, ![n, b]⟩] ⟨2, ![n, c]⟩ 1) (r : Fin n) (k : Fin c) (k₁ : Fin a)
    (hk : k₁.val = k.val) :
    concatenate ⟨2, ![n, c]⟩ 1 [⟨⟨2, ![n, a]⟩, x₁⟩, ⟨⟨2, ![n, b]⟩, x₂⟩] h (ix2 r k) = x₁ (ix2 r k₁) :=
  concatenate_pair_apply_left 1 x₁ x₂ h _ rfl _ (fun d => by
    match d with
    | ⟨0, _⟩ => rfl
    | ⟨1, _⟩ => exact hk)

/-- … and at a column k = k₂ + a past the first: the second array at (r, k₂). -/
theorem cat_right {n a b c : Nat} (x₁ : (⟨2, ![n, a]⟩ : Shape).Idx → EReal) (x₂ : (⟨2, ![n, b]⟩ : Shape).Idx → EReal)
    (h : Shape.Concatenates [⟨2, ![n, a]⟩, ⟨2, ![n, b]⟩] ⟨2, ![n, c]⟩ 1) (r : Fin n) (k : Fin c) (k₂ : Fin b)
    (hk : k₂.val + a = k.val) :
    concatenate ⟨2, ![n, c]⟩ 1 [⟨⟨2, ![n, a]⟩, x₁⟩, ⟨⟨2, ![n, b]⟩, x₂⟩] h (ix2 r k) = x₂ (ix2 r k₂) :=
  concatenate_pair_apply_right 1 x₁ x₂ h _ rfl rfl _
    (fun d hd => by
      match d with
      | ⟨0, _⟩ => rfl
      | ⟨1, _⟩ => exact absurd rfl hd)
    hk

/-- Row r of two arrays joined along their columns is the joined row of their rows r. -/
theorem cat_join {n a b : Nat} (x₁ : (⟨2, ![n, a]⟩ : Shape).Idx → EReal) (x₂ : (⟨2, ![n, b]⟩ : Shape).Idx → EReal)
    (h : Shape.Concatenates [⟨2, ![n, a]⟩, ⟨2, ![n, b]⟩] ⟨2, ![n, a + b]⟩ 1) (r : Fin n)
    (u : Fin a → EReal) (v : Fin b → EReal) (hu : ∀ k, x₁ (ix2 r k) = u k) (hv : ∀ k, x₂ (ix2 r k) = v k)
    (k : Fin (a + b)) :
    concatenate ⟨2, ![n, a + b]⟩ 1 [⟨⟨2, ![n, a]⟩, x₁⟩, ⟨⟨2, ![n, b]⟩, x₂⟩] h (ix2 r k) = join u v k := by
  unfold join
  by_cases hk : k.val < a
  · rw [dif_pos hk]
    exact (cat_left x₁ x₂ h r k ⟨k.val, hk⟩ rfl).trans (hu _)
  · rw [dif_neg hk]
    exact (cat_right x₁ x₂ h r k ⟨k.val - a, by have := k.isLt; omega⟩ (Nat.sub_add_cancel (Nat.le_of_not_lt hk))).trans (hv _)

/-! ## The zero of each max (·, 0)

  Each of the seven max (·, 0) of the reference has its own broadcast zero; every one is the word 0x00000000 at every
  entry, which is the specification's `zero`. -/

theorem zero0 (i : S1048576x128.Idx) : val_main_call0_v0 (F := Ideal) i = Spec.zero := val_main_call0_v0_apply i
theorem zero1 (i : S1048576x128.Idx) : val_main_call1_v0 (F := Ideal) i = Spec.zero := val_main_call1_v0_apply i
theorem zero2 (i : S1048576x128.Idx) : val_main_call2_v0 (F := Ideal) i = Spec.zero := val_main_call2_v0_apply i
theorem zero3 (i : S1048576x128.Idx) : val_main_call3_v0 (F := Ideal) i = Spec.zero := val_main_call3_v0_apply i
theorem zero4 (i : S1048576x128.Idx) : val_main_call4_v0 (F := Ideal) i = Spec.zero := val_main_call4_v0_apply i
theorem zero5 (i : S1048576x128.Idx) : val_main_call5_v0 (F := Ideal) i = Spec.zero := val_main_call5_v0_apply i
theorem zero6 (i : S1048576x128.Idx) : val_main_call6_v0 (F := Ideal) i = Spec.zero := val_main_call6_v0_apply i

/-! ## The stages, one row at a time

  Throughout, r is a row of the input, x = `Spec.rowOf x0 r` is that input row and W the weights cut out of x1 … x9. -/

section Stages

variable (x0 : (⟨S1048576x90, .f32⟩ : BufTy).Contents (Elt Ideal)) (x1 : (⟨S63x128, .f32⟩ : BufTy).Contents (Elt Ideal))
  (x2 x3 : (⟨S128x128, .f32⟩ : BufTy).Contents (Elt Ideal)) (x4 : (⟨S191x128, .f32⟩ : BufTy).Contents (Elt Ideal))
  (x5 x6 : (⟨S128x128, .f32⟩ : BufTy).Contents (Elt Ideal)) (x7 : (⟨S128x129, .f32⟩ : BufTy).Contents (Elt Ideal))
  (x8 : (⟨S155x128, .f32⟩ : BufTy).Contents (Elt Ideal)) (x9 : (⟨S128x3, .f32⟩ : BufTy).Contents (Elt Ideal))

local notation "W" => Spec.weightsOf x1 x2 x3 x4 x5 x6 x7 x8 x9

/-- Columns 0 … 62 of the input: the position encoding of row r. -/
theorem pos_eq (r : Fin 1048576) (k : Fin 63) :
    val_main_v0 (F := Ideal) x0 (ix2 r k) = Spec.pos (Spec.rowOf x0 r) k := by
  unfold val_main_v0
  exact slice2_axis1_apply 0 x0 _ r k ⟨k.val, by omega⟩ (Nat.zero_add _).symm

/-- Columns 63 … 89 of the input: the view encoding of row r. -/
theorem view_eq (r : Fin 1048576) (k : Fin 27) :
    val_main_v1 (F := Ideal) x0 (ix2 r k) = Spec.view (Spec.rowOf x0 r) k := by
  unfold val_main_v1
  exact slice2_axis1_apply 63 x0 _ r k ⟨63 + k.val, by omega⟩ rfl

/-- h¹ = relu (pos · A₁): the product of the position columns with x1, then max (·, 0). -/
theorem h1_eq (r : Fin 1048576) (j : Fin 128) :
    val_main_v3 (F := Ideal) x0 x1 (ix2 r j) = Spec.h1 W (Spec.rowOf x0 r) j := by
  unfold val_main_v3
  refine relu_at _ _ _ _ (zero0 _) ?_
  unfold val_main_v2
  exact dot_lin _ x1 r _ (pos_eq x0 r) j

/-- h² = relu (h¹ · A₂). -/
theorem h2_eq (r : Fin 1048576) (j : Fin 128) :
    val_main_v5 (F := Ideal) x0 x1 x2 (ix2 r j) = Spec.h2 W (Spec.rowOf x0 r) j := by
  unfold val_main_v5
  refine relu_at _ _ _ _ (zero1 _) ?_
  unfold val_main_v4
  exact dot_lin _ x2 r _ (h1_eq x0 x1 x2 x3 x4 x5 x6 x7 x8 x9 r) j

/-- h³ = relu (h² · A₃). -/
theorem h3_eq (r : Fin 1048576) (j : Fin 128) :
    val_main_v7 (F := Ideal) x0 x1 x2 x3 (ix2 r j) = Spec.h3 W (Spec.rowOf x0 r) j := by
  unfold val_main_v7
  refine relu_at _ _ _ _ (zero2 _) ?_
  unfold val_main_v6
  exact dot_lin _ x3 r _ (h2_eq x0 x1 x2 x3 x4 x5 x6 x7 x8 x9 r) j

/-- The position columns joined with h³: row r is the joined row (pos x, h³), of length 63 + 128. -/
theorem posh3_eq (r : Fin 1048576) (k : Fin (63 + 128)) :
    val_main_v8 (F := Ideal) x0 x1 x2 x3 (ix2 r k)
      = join (Spec.pos (Spec.rowOf x0 r)) (Spec.h3 W (Spec.rowOf x0 r)) k := by
  unfold val_main_v8
  exact cat_join (a := 63) (b := 128) _ _ _ r _ _ (pos_eq x0 r) (h3_eq x0 x1 x2 x3 x4 x5 x6 x7 x8 x9 r) k

/-- g¹ = relu (pos · B₀ᵗ + h³ · B₀ᵇ). The reference multiplies the joined row by the whole x4; the law of the cut sum
    turns that into the two partial products with the top 63 and the bottom 128 rows of x4, which are B₀ᵗ and B₀ᵇ by
    the definition of the weights. -/
theorem g1_eq (r : Fin 1048576) (j : Fin 128) :
    val_main_v10 (F := Ideal) x0 x1 x2 x3 x4 (ix2 r j) = Spec.g1 W (Spec.rowOf x0 r) j := by
  unfold val_main_v10
  refine relu_at _ _ _ _ (zero3 _) ?_
  unfold val_main_v9
  refine (dot_lin _ x4 r _ (posh3_eq x0 x1 x2 x3 x4 x5 x6 x7 x8 x9 r) j).trans ?_
  exact lin_join (a := 63) (b := 128) _ _ _ _ _ (fun _ _ => rfl) (fun _ _ => rfl) j

/-- g² = relu (g¹ · B₁). -/
theorem g2_eq (r : Fin 1048576) (j : Fin 128) :
    val_main_v12 (F := Ideal) x0 x1 x2 x3 x4 x5 (ix2 r j) = Spec.g2 W (Spec.rowOf x0 r) j := by
  unfold val_main_v12
  refine relu_at _ _ _ _ (zero4 _) ?_
  unfold val_main_v11
  exact dot_lin _ x5 r _ (g1_eq x0 x1 x2 x3 x4 x5 x6 x7 x8 x9 r) j

/-- g³ = relu (g² · B₂). -/
theorem g3_eq (r : Fin 1048576) (j : Fin 128) :
    val_main_v14 (F := Ideal) x0 x1 x2 x3 x4 x5 x6 (ix2 r j) = Spec.g3 W (Spec.rowOf x0 r) j := by
  unfold val_main_v14
  refine relu_at _ _ _ _ (zero5 _) ?_
  unfold val_main_v13
  exact dot_lin _ x6 r _ (g2_eq x0 x1 x2 x3 x4 x5 x6 x7 x8 x9 r) j

/-- g³ times the whole 128 × 129 matrix x7: 129 numbers, the density first and the feature vector after it. -/
theorem sigmaf_eq (r : Fin 1048576) (k : Fin 129) :
    val_main_v15 (F := Ideal) x0 x1 x2 x3 x4 x5 x6 x7 (ix2 r k)
      = Spec.lin (Spec.g3 W (Spec.rowOf x0 r)) (fun i q => x7 (ix2 i q)) k := by
  unfold val_main_v15
  exact dot_lin _ x7 r _ (g3_eq x0 x1 x2 x3 x4 x5 x6 x7 x8 x9 r) k

/-- σ = g³ · d: column 0 of that product, d being column 0 of x7. -/
theorem dens_eq (r : Fin 1048576) (j : Fin 1) :
    val_main_v16 (F := Ideal) x0 x1 x2 x3 x4 x5 x6 x7 (ix2 r j) = Spec.dens W (Spec.rowOf x0 r) j := by
  unfold val_main_v16
  refine (slice2_axis1_apply (n1 := 129) 0 (val_main_v15 (F := Ideal) x0 x1 x2 x3 x4 x5 x6 x7) _ r j ⟨j.val, by omega⟩
    (Nat.zero_add _).symm).trans ?_
  exact sigmaf_eq x0 x1 x2 x3 x4 x5 x6 x7 x8 x9 r _

/-- f = g³ · Φ: columns 1 … 128 of that product, Φ being columns 1 … 128 of x7. -/
theorem feat_eq (r : Fin 1048576) (j : Fin 128) :
    val_main_v17 (F := Ideal) x0 x1 x2 x3 x4 x5 x6 x7 (ix2 r j) = Spec.feat W (Spec.rowOf x0 r) j := by
  unfold val_main_v17
  refine (slice2_axis1_apply (n1 := 129) 1 (val_main_v15 (F := Ideal) x0 x1 x2 x3 x4 x5 x6 x7) _ r j ⟨1 + j.val, by omega⟩
    rfl).trans ?_
  exact sigmaf_eq x0 x1 x2 x3 x4 x5 x6 x7 x8 x9 r _

/-- The view columns joined with f: row r is the joined row (view x, f), of length 27 + 128. -/
theorem viewfeat_eq (r : Fin 1048576) (k : Fin (27 + 128)) :
    val_main_v18 (F := Ideal) x0 x1 x2 x3 x4 x5 x6 x7 (ix2 r k)
      = join (Spec.view (Spec.rowOf x0 r)) (Spec.feat W (Spec.rowOf x0 r)) k := by
  unfold val_main_v18
  exact cat_join (a := 27) (b := 128) _ _ _ r _ _ (view_eq x0 r) (feat_eq x0 x1 x2 x3 x4 x5 x6 x7 x8 x9 r) k

/-- c = relu (view · C₀ᵗ + f · C₀ᵇ): the law of the cut sum again, the whole x8 cut after its 27th row. -/
theorem col_eq (r : Fin 1048576) (j : Fin 128) :
    val_main_v20 (F := Ideal) x0 x1 x2 x3 x4 x5 x6 x7 x8 (ix2 r j) = Spec.col W (Spec.rowOf x0 r) j := by
  unfold val_main_v20
  refine relu_at _ _ _ _ (zero6 _) ?_
  unfold val_main_v19
  refine (dot_lin _ x8 r _ (viewfeat_eq x0 x1 x2 x3 x4 x5 x6 x7 x8 x9 r) j).trans ?_
  exact lin_join (a := 27) (b := 128) _ _ _ _ _ (fun _ _ => rfl) (fun _ _ => rfl) j

/-- rgb = c · C₁. -/
theorem rgb_eq (r : Fin 1048576) (j : Fin 3) :
    val_main_v21 (F := Ideal) x0 x1 x2 x3 x4 x5 x6 x7 x8 x9 (ix2 r j) = Spec.rgb W (Spec.rowOf x0 r) j := by
  unfold val_main_v21
  exact dot_lin _ x9 r _ (col_eq x0 x1 x2 x3 x4 x5 x6 x7 x8 x9 r) j

/-- The result row (rgb₀, rgb₁, rgb₂, σ): rgb joined with σ, read at a column below 3 or at column 3. -/
theorem out_eq (r : Fin 1048576) (c : Fin 4) :
    val_main_v22 (F := Ideal) x0 x1 x2 x3 x4 x5 x6 x7 x8 x9 (ix2 r c) = Spec.out W (Spec.rowOf x0 r) c := by
  unfold val_main_v22 Spec.out
  by_cases hc : c.val < 3
  · rw [dif_pos hc]
    exact (cat_left _ _ _ r c ⟨c.val, hc⟩ rfl).trans (rgb_eq x0 x1 x2 x3 x4 x5 x6 x7 x8 x9 r _)
  · rw [dif_neg hc]
    exact (cat_right _ _ _ r c ⟨c.val - 3, by omega⟩ (Nat.sub_add_cancel (Nat.le_of_not_lt hc))).trans
      (dens_eq x0 x1 x2 x3 x4 x5 x6 x7 x8 x9 r _)

end Stages

/-! ## The whole array -/

/-- The reference's result array is the network's result array: at every entry (r, c) both are entry c of the
    network's result on row r of the input. -/
theorem ref_eq_G
    (x0 : (⟨S1048576x90, .f32⟩ : BufTy).Contents (Elt Ideal)) (x1 : (⟨S63x128, .f32⟩ : BufTy).Contents (Elt Ideal))
    (x2 x3 : (⟨S128x128, .f32⟩ : BufTy).Contents (Elt Ideal)) (x4 : (⟨S191x128, .f32⟩ : BufTy).Contents (Elt Ideal))
    (x5 x6 : (⟨S128x128, .f32⟩ : BufTy).Contents (Elt Ideal)) (x7 : (⟨S128x129, .f32⟩ : BufTy).Contents (Elt Ideal))
    (x8 : (⟨S155x128, .f32⟩ : BufTy).Contents (Elt Ideal)) (x9 : (⟨S128x3, .f32⟩ : BufTy).Contents (Elt Ideal)) :
    Cert.ReferenceIdeal.Read.val_main_v22 (F := Ideal) x0 x1 x2 x3 x4 x5 x6 x7 x8 x9
      = Cert.Spec.G x0 x1 x2 x3 x4 x5 x6 x7 x8 x9 := by
  funext i
  obtain ⟨r, c, rfl⟩ : ∃ (r : Fin 1048576) (c : Fin 4), i = ix2 r c := ⟨i 0, i 1, eq_ix2 i⟩
  exact (out_eq x0 x1 x2 x3 x4 x5 x6 x7 x8 x9 r c).trans (Spec.G_ix2 x0 x1 x2 x3 x4 x5 x6 x7 x8 x9 r c).symm

end Cert.ReferenceIdeal.RefValue

end
-- ==== Proof.lean ====
/-
  A fused network of three small dense networks (density part 1, density part 2, colour), evaluated on a million rows:
  the kernel against its array-at-a-time reference, on the extended reals.

  Both programs compute, for every input row x of 90 numbers, the row (rgb₀, rgb₁, rgb₂, σ) of Proof/Spec.lean:
  three layers relu (· A) on the 63 position entries, a layer that reads the position entries again beside the
  result so far, two more layers, a last layer giving the density σ and 128 features, a layer that reads the 27 view
  entries beside the features, and a last layer giving the colour. The reference joins (pos, h³) and (view, f) into
  rows of length 191 and 155 and multiplies by the whole matrices; the kernel keeps those two matrices cut where the
  rows are joined and adds the two partial products, and keeps the 128 × 129 matrix cut into its first column and the
  rest. A product with a joined row is a finite sum cut in two, which is the sum of the two parts in any commutative
  monoid, so the two programs agree entry by entry on all extended reals: the precondition that the inputs are finite
  is not used by the value argument. The kernel also narrows every matrix and every activation to bf16 before each
  product; on the extended reals a change of format is the identity.

  The parts:
    Proof/Spec.lean        the network on one row, and the result array G of the ten argument arrays;
    Proof/RefValue.lean    the reference's result array is G (the law of the cut sum is there);
    Proof/Payload.lean     entry (p, c) of the block the kernel's body stores is the network on row p of its input block;
    Proof/HostArrays.lean  the kernel's twelve weight arrays are the nine weight arguments, cut, entry by entry;
    Proof/Blocks.lean      point t of the grid writes block t of G, the 256 blocks cover the array, so the kernel's
                           result array is G;
    Proof/LibPlainDot.lean a plain matrix product read at one entry, for all extents.
  Here the five claims are assembled: the two kernels' frames are the generated ones, the reference's frame is its
  generated run with the result dropped, the idealization rewrote nothing, and the two idealized programs both end
  with their result array at G of arguments that agree.
-/
import proofs.«102627_j46471546142971_2_alg».proof.Defs
import proofs.«102627_j46471546142971_2_alg».proof.Proof.Gen.Kernel
import proofs.«102627_j46471546142971_2_alg».proof.Proof.Gen.Kernel.Skeleton
import proofs.«102627_j46471546142971_2_alg».proof.Proof.Gen.Kernel.Launch
import proofs.«102627_j46471546142971_2_alg».proof.Proof.Gen.Kernel.Points
import proofs.«102627_j46471546142971_2_alg».proof.Proof.Gen.Kernel.Frame
import proofs.«102627_j46471546142971_2_alg».proof.Proof.Gen.KernelIdeal
import proofs.«102627_j46471546142971_2_alg».proof.Proof.Gen.KernelIdeal.Skeleton
import proofs.«102627_j46471546142971_2_alg».proof.Proof.Gen.KernelIdeal.Launch
import proofs.«102627_j46471546142971_2_alg».proof.Proof.Gen.KernelIdeal.Points
import proofs.«102627_j46471546142971_2_alg».proof.Proof.Gen.KernelIdeal.Frame
import proofs.«102627_j46471546142971_2_alg».proof.Proof.Gen.ReferenceIdeal
import proofs.«102627_j46471546142971_2_alg».proof.Proof.Gen.Pre_finite_inputs
import proofs.«102627_j46471546142971_2_alg».proof.Proof.Gen.KernelIdeal.Value
import proofs.«102627_j46471546142971_2_alg».proof.Proof.Gen.ReferenceIdeal.Run
import proofs.«102627_j46471546142971_2_alg».proof.Proof.Gen.ReferenceIdeal.Read
import proofs.«102627_j46471546142971_2_alg».proof.Proof.Blocks
import proofs.«102627_j46471546142971_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its run, with what it says about the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel: there is nothing to preserve. -/
theorem preserves : Cert.preserves_Kernel_KernelIdeal := trivial

/-- Both idealized programs end with their result array at the network's result G on the argument arrays: the
    kernel's by its 256 blocks, the reference's operation by operation; and the arguments agree. -/
theorem algebraic : Cert.algebraic_KernelIdeal_ReferenceIdeal := by
  intro m ρ m' ρ' _ hagree
  refine ⟨fun c => (Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_eq_G,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
